-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 60
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x256, .f32⟩
  | .hbm, ⟨38, _⟩ => ⟨S_, .f32⟩
  | .hbm, ⟨39, _⟩ => ⟨S50000x256, .f32⟩
  | .hbm, ⟨40, _⟩ => ⟨S850000x1, .i32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_c : Ref sig .tc := ⟨.hbm, 29, rfl⟩
abbrev main_call0_v17 : Ref sig .tc := ⟨.hbm, 30, rfl⟩
abbrev main_call0_v18 : Ref sig .tc := ⟨.hbm, 31, rfl⟩
abbrev main_call0_c_3 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_cst_4 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_c_5 : Ref sig .tc := ⟨.hbm, 45, rfl⟩
abbrev main_call0_v30 : Ref sig .tc := ⟨.hbm, 46, rfl⟩
abbrev main_call0_v31 : Ref sig .tc := ⟨.hbm, 47, rfl⟩
abbrev main_call0_c_6 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_cst_7 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_v0 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S_S50000x256 : S_.BroadcastsInDim S50000x256 (![] : Fin 0 → Fin S50000x256.rank)
  shapeCasts_S256_S1x256 : S256.ShapeCasts S1x256
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S50000_S850000x1_S850000_n_0_0_1_wf : ScatterDims.WF S50000 S850000x1 S850000 [] [0] [0] 1
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v26) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v28) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v28) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x256, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefTerms.lean ====
/-
  The idealized reference program's values, named as the kernel side's are: the edge lists with the self-loops, the
  degrees, the per-node scale `dinv`, and each layer as the reference computes it — the dense product, its rows looked
  up at the sources and scaled by the per-edge factor `dinv[src e] · dinv[dst e]`, accumulated at the targets, plus the
  bias.  `refOut` composes the two layers with the rectifier between them.
-/
import proofs.«163016_j82188494176916_2_alg».proof.Proof.Gen.ReferenceIdeal
import Idealize.ShloMosaic.PureOps.Ideal

noncomputable section

namespace Cert.ReferenceIdeal.Val

open Idealize.ShloMosaic Cert.ReferenceIdeal Cert.ReferenceIdeal.Gen

/-- The sources of the 800000 edges followed by the 50000 self-loops `0, 1, …`. -/
def srcRows (ei : IVec S2x800000 32) : IVec S850000 32 :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- The targets of the 800000 edges followed by the 50000 self-loops. -/
def dstRows (ei : IVec S2x800000 32) : IVec S850000 32 :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- A list of rows as a column of scatter / gather start indices. -/
def asCol (v : IVec S850000 32) : IVec S850000x1 32 := broadcastInDim S850000x1 ![0] bcast_S850000_S850000x1_0 v

/-- The same with the negative entries wrapped around (`v + 50000` where `v < 0`), as a lookup `x[v]` does first. -/
def wrapCol (v : IVec S850000 32) : IVec S850000x1 32 :=
  asCol (select (cmpi .slt v (broadcastInDim S850000 ![] bcast_S_S850000 (constantI S_ 32 0#32)))
    (addi v (broadcastInDim S850000 ![] bcast_S_S850000 (constantI S_ 32 50000#32))) v)

/-- The zero vector of node scalars. -/
def zeroNodes : FVec Ideal S50000 .f32 := broadcastInDim S50000 ![] bcast_S_S50000 (constant (F := Ideal) S_ .f32 0x00000000#32)

/-- The number of edges (self-loop included) arriving at each node, as a sum of ones. -/
def degree (ei : IVec S2x800000 32) : FVec Ideal S50000 .f32 :=
  Host.scatterAdd (F := Ideal) scatter_S50000_S850000x1_S850000_n_0_0_1 zeroNodes (asCol (dstRows ei))
    (broadcastInDim S850000 ![] bcast_S_S850000 (constant (F := Ideal) S_ .f32 0x3F800000#32))

/-- The per-node scale: the inverse square root of the degree where it is positive, zero elsewhere. -/
def dinv (ei : IVec S2x800000 32) : FVec Ideal S50000 .f32 :=
  select (cmpf (F := Ideal) .ogt (degree ei) zeroNodes) (Host.rsqrt (F := Ideal) (degree ei)) zeroNodes

/-- The per-edge factor `dinv[src e] · dinv[dst e]`. -/
def edgeNorm (ei : IVec S2x800000 32) : FVec Ideal S850000 .f32 :=
  mulf (Host.gather gather_S50000_S850000x1_S850000_n_0_n_n_0_1_1 (dinv ei) (wrapCol (srcRows ei)))
    (Host.gather gather_S50000_S850000x1_S850000_n_0_n_n_0_1_1 (dinv ei) (wrapCol (dstRows ei)))

/-- Layer 1 as the reference computes it, before the rectifier. -/
def layer1 (x : FVec Ideal S50000x128 .f32) (ei : IVec S2x800000 32) (w1 : FVec Ideal S128x256 .f32) (b1 : FVec Ideal S256 .f32) :
    FVec Ideal S50000x256 .f32 :=
  addf (Host.scatterAdd (F := Ideal) scatter_S50000x256_S850000x1_S850000x256_1_0_0_1
      (broadcastInDim S50000x256 ![] bcast_S_S50000x256 (constant (F := Ideal) S_ .f32 0x00000000#32)) (asCol (dstRows ei))
      (mulf (Host.gather gather_S50000x256_S850000x1_S850000x256_1_0_n_n_0_1_1256
          (Host.dotGeneral (F := Ideal) dot_S50000x128_S128x256_S50000x256_1_0_0_1_n_n none x w1) (wrapCol (srcRows ei)))
        (broadcastInDim S850000x256 ![0, 1] bcast_S850000x1_S850000x256_0_1
          (broadcastInDim S850000x1 ![0] bcast_S850000_S850000x1_0 (edgeNorm ei)))))
    (broadcastInDim S50000x256 ![0, 1] bcast_S1x256_S50000x256_0_1 (broadcastInDim S1x256 ![1] bcast_S256_S1x256_1 b1))

/-- The rectifier `max · 0` on a layer-1 array. -/
def relu (a : FVec Ideal S50000x256 .f32) : FVec Ideal S50000x256 .f32 :=
  maximumf a (broadcastInDim S50000x256 ![] bcast_S_S50000x256 (constant (F := Ideal) S_ .f32 0x00000000#32))

/-- Layer 2 as the reference computes it. -/
def layer2 (h : FVec Ideal S50000x256 .f32) (ei : IVec S2x800000 32) (w2 : FVec Ideal S256x128 .f32) (b2 : FVec Ideal S128 .f32) :
    FVec Ideal S50000x128 .f32 :=
  addf (Host.scatterAdd (F := Ideal) scatter_S50000x128_S850000x1_S850000x128_1_0_0_1
      (broadcastInDim S50000x128 ![] bcast_S_S50000x128 (constant (F := Ideal) S_ .f32 0x00000000#32)) (asCol (dstRows ei))
      (mulf (Host.gather gather_S50000x128_S850000x1_S850000x128_1_0_n_n_0_1_1128
          (Host.dotGeneral (F := Ideal) dot_S50000x256_S256x128_S50000x128_1_0_0_1_n_n none h w2) (wrapCol (srcRows ei)))
        (broadcastInDim S850000x128 ![0, 1] bcast_S850000x1_S850000x128_0_1
          (broadcastInDim S850000x1 ![0] bcast_S850000_S850000x1_0 (edgeNorm ei)))))
    (broadcastInDim S50000x128 ![0, 1] bcast_S1x128_S50000x128_0_1 (broadcastInDim S1x128 ![1] bcast_S128_S1x128_1 b2))

/-- The reference program's result as a function of its six arguments. -/
def refOut (x : FVec Ideal S50000x128 .f32) (ei : IVec S2x800000 32) (w1 : FVec Ideal S128x256 .f32) (b1 : FVec Ideal S256 .f32)
    (w2 : FVec Ideal S256x128 .f32) (b2 : FVec Ideal S128 .f32) : FVec Ideal S50000x128 .f32 :=
  layer2 (relu (layer1 x ei w1 b1)) ei w2 b2

end Cert.ReferenceIdeal.Val

end
-- ==== Proof.RefValue.lean ====
/-
  The reference program's result term, as its run states it, is `refOut` of the six argument arrays: the same
  operations in the same order, with the shared sub-terms (edge lists, degrees, per-node scale, per-edge factor) named.
-/
import proofs.«163016_j82188494176916_2_alg».proof.Proof.RefRun
import proofs.«163016_j82188494176916_2_alg».proof.Proof.RefTerms

noncomputable section

namespace Cert.ReferenceIdeal.Val

open Idealize.ShloMosaic Idealize.ShloMosaic.TcCoe Idealize.SL.Sem Cert.ReferenceIdeal Cert.ReferenceIdeal.Gen

set_option maxRecDepth 16384 in
/-- The run's composed term of the arguments is the reference's two layers. -/
theorem result_eq (m : (ℓ : Loc nD τ sig) → Buf (Elt Ideal) ℓ) (c : Dev nD) :
    Cert.ReferenceIdeal.ValueP.res_main_v87 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87 refOut layer2 relu layer1 edgeNorm dinv degree zeroNodes wrapCol asCol srcRows dstRows
  rfl

end Cert.ReferenceIdeal.Val

end
-- ==== Proof.KernelRun.lean ====
/-
  The idealized kernel program's run with its RESULT named: every weakly fair execution of @main terminates, nothing
  faulting, the argument arrays end as launched, and the result array `main_v0` ends at what the fold of @main's
  segments leaves there (`Gen.W7`: the three stretches of host operations and the four regions' write-backs, from the
  launch memory).  The launch of the seven segments ends in a thread state holding every unscoped buffer at `Gen.W7`;
  the result array and the six arguments are read off that state, the arguments through the fold back to the launch
  memory.
-/
import proofs.«163016_j82188494176916_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with the result array read off the final thread state. -/
theorem run : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Spec.lean ====
/-
  The mathematics of one graph-convolution layer, free of any program: arrays are functions of their indices into the
  extended reals, indices are built from coordinates.

  A layer takes node features `x : [N, K]`, weights `w : [K, M]`, a bias, the edge lists and the per-node scale
  `dinv` (the inverse square root of the node's degree, or zero).  Written out on an entry `(n, f)` of its result:

      kernel form      ((Σ_{e lands on n}  (Σ_k x[s e, k] · w[k, f]) · dinv[s e]) · dinv[n])  +  b[f]
      reference form    (Σ_{e lands on n}  (Σ_k x[s e, k] · w[k, f]) · (dinv[s e] · dinv[t e]))  +  b[f]

  where `s e` is the (clamped) source row of edge `e` and `t e` its (clamped) target row, which is `n` itself for every
  edge that lands on `n`.  The two agree because multiplication by a factor that is non-negative and not `+∞` distributes
  over any finite sum of extended reals (no finiteness of the summands is needed), and multiplication is associative.
-/
import Idealize.ShloMosaic.PureOps.Ideal
import Idealize.ShloMosaic.Lib.ValueIdx

noncomputable section

open scoped BigOperators

namespace GcnSpec

open Idealize.ShloMosaic Idealize.ShloMosaic.ValueIdx

/-- Entry `(n, f)` of `(x · w)` with row `n` scaled by `d[n, 0]`: the dense transform with the pre-scale by `dinv`. -/
def scaledProduct {N K M : Nat} (x : (⟨2, ![N, K]⟩ : Shape).Idx → EReal) (w : (⟨2, ![K, M]⟩ : Shape).Idx → EReal)
    (d : (⟨2, ![N, 1]⟩ : Shape).Idx → EReal) : (⟨2, ![N, M]⟩ : Shape).Idx → EReal :=
  fun i => (∑ k : Fin K, x (ix2 (i 0) k) * w (ix2 k (i 1))) * d (ix2 (i 0) (0 : Fin 1))

/-- Entry `(n, f)` of the aggregated array after the post-scale and the bias: `a[n, f] · d[n, 0] + b[0, f]`. -/
def scaleShift {N M : Nat} (a : (⟨2, ![N, M]⟩ : Shape).Idx → EReal) (d : (⟨2, ![N, 1]⟩ : Shape).Idx → EReal)
    (b : (⟨2, ![1, M]⟩ : Shape).Idx → EReal) : (⟨2, ![N, M]⟩ : Shape).Idx → EReal :=
  fun i => a (ix2 (i 0) (i 1)) * d (ix2 (i 0) (0 : Fin 1)) + b (ix2 (0 : Fin 1) (i 1))

/-- The same followed by the rectifier `max · 0`. -/
def scaleShiftRelu {N M : Nat} (a : (⟨2, ![N, M]⟩ : Shape).Idx → EReal) (d : (⟨2, ![N, 1]⟩ : Shape).Idx → EReal)
    (b : (⟨2, ![1, M]⟩ : Shape).Idx → EReal) : (⟨2, ![N, M]⟩ : Shape).Idx → EReal :=
  fun i => max (a (ix2 (i 0) (i 1)) * d (ix2 (i 0) (0 : Fin 1)) + b (ix2 (0 : Fin 1) (i 1))) 0

/-- A factor that is non-negative and not `+∞` distributes over a finite sum of extended reals, whatever the
    summands are (infinite ones included). -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, ← ih, mul_comm, EReal.left_distrib_of_nonneg_of_ne_top h0 ht,
      mul_comm D, mul_comm D]

/-- THE LAW that joins the two forms of a layer's entry: scaling the aggregated sum by the target's factor `D`
    afterwards is scaling every summand by `s j · t j` when `t j = D` on the summed set. -/
theorem aggregate_scale_eq {ι : Type*} (P : Finset ι) (a s t : ι → EReal) {D : EReal} (h0 : 0 ≤ D) (ht : D ≠ ⊤)
    (htD : ∀ j ∈ P, t j = D) (b : EReal) :
    (0 + ∑ j ∈ P, a j * s j) * D + b = (0 + ∑ j ∈ P, a j * (s j * t j)) + b := by
  rw [zero_add, zero_add, sum_mul_of_nonneg_ne_top P _ h0 ht]
  congr 1
  refine Finset.sum_congr rfl fun j hj => ?_
  rw [htD j hj, mul_assoc]

end GcnSpec

end
-- ==== Proof.KernelTerms.lean ====
/-
  The idealized kernel program's host-side values, named: the edge lists with the self-loops appended, the node
  degrees, the per-node scale `dinv = 1/√deg` (zero where the degree is not positive), its column form, the wrapped
  start indices of a row lookup, and the aggregation `agg[n, :] = Σ_{e : dst e = n} hs[src e, :]` of each layer as the
  host computes it (a row gather followed by an accumulating row scatter into zeros).  `kernelOut` composes the four
  dense stages (GcnSpec) with the two aggregations: the function of the six arguments the program's result array holds.
-/
import proofs.«163016_j82188494176916_2_alg».proof.Proof.Gen.KernelIdeal
import proofs.«163016_j82188494176916_2_alg».proof.Proof.Spec

noncomputable section

namespace Cert.KernelIdeal.Val

open Idealize.ShloMosaic Cert.KernelIdeal Cert.KernelIdeal.Gen

/-- The sources of the 800000 edges followed by the 50000 self-loops `0, 1, …`. -/
def srcRows (ei : IVec S2x800000 32) : IVec S850000 32 :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- The targets of the 800000 edges followed by the 50000 self-loops. -/
def dstRows (ei : IVec S2x800000 32) : IVec S850000 32 :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- A list of rows as a column of scatter / gather start indices. -/
def asCol (v : IVec S850000 32) : IVec S850000x1 32 := broadcastInDim S850000x1 ![0] bcast_S850000_S850000x1_0 v

/-- The same with the negative entries wrapped around (`v + 50000` where `v < 0`), as a row lookup `x[v]` does first. -/
def wrapCol (v : IVec S850000 32) : IVec S850000x1 32 :=
  asCol (select (cmpi .slt v (broadcastInDim S850000 ![] bcast_S_S850000 (constantI S_ 32 0#32)))
    (addi v (broadcastInDim S850000 ![] bcast_S_S850000 (constantI S_ 32 50000#32))) v)

/-- The zero vector of node scalars. -/
def zeroNodes : FVec Ideal S50000 .f32 := broadcastInDim S50000 ![] bcast_S_S50000 (constant (F := Ideal) S_ .f32 0x00000000#32)

/-- The number of edges (self-loop included) arriving at each node, as a sum of ones. -/
def degree (ei : IVec S2x800000 32) : FVec Ideal S50000 .f32 :=
  Host.scatterAdd (F := Ideal) scatter_S50000_S850000x1_S850000_n_0_0_1 zeroNodes (asCol (dstRows ei))
    (broadcastInDim S850000 ![] bcast_S_S850000 (constant (F := Ideal) S_ .f32 0x3F800000#32))

/-- The per-node scale: the inverse square root of the degree where it is positive, zero elsewhere. -/
def dinv (ei : IVec S2x800000 32) : FVec Ideal S50000 .f32 :=
  select (cmpf (F := Ideal) .ogt (degree ei) zeroNodes) (Host.rsqrt (F := Ideal) (degree ei)) zeroNodes

/-- The scale as a column `[50000, 1]`, the form the four regions read it in. -/
def dinvCol (ei : IVec S2x800000 32) : FVec Ideal S50000x1 .f32 := shapeCast S50000x1 (dinv ei) shapeCasts_S50000_S50000x1

/-- Layer 1's aggregation: rows of `hs` looked up at the sources, accumulated at the targets. -/
def aggregate1 (hs : FVec Ideal S50000x256 .f32) (ei : IVec S2x800000 32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32)) (asCol (dstRows ei))
    (Host.gather gather_S50000x256_S850000x1_S850000x256_1_0_n_n_0_1_1256 hs (wrapCol (srcRows ei)))

/-- Layer 2's aggregation. -/
def aggregate2 (hs : FVec Ideal S50000x128 .f32) (ei : IVec S2x800000 32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (asCol (dstRows ei))
    (Host.gather gather_S50000x128_S850000x1_S850000x128_1_0_n_n_0_1_1128 hs (wrapCol (srcRows ei)))

/-- Layer 1 as the kernel program computes it: the dense transform pre-scaled by `dinv`, aggregated, post-scaled,
    shifted by the bias, rectified. -/
def layer1 (x : FVec Ideal S50000x128 .f32) (ei : IVec S2x800000 32) (w1 : FVec Ideal S128x256 .f32) (b1 : FVec Ideal S256 .f32) :
    FVec Ideal S50000x256 .f32 :=
  GcnSpec.scaleShiftRelu (N := 50000) (M := 256) (aggregate1 (GcnSpec.scaledProduct (N := 50000) (K := 128) (M := 256) x w1 (dinvCol ei)) ei)
    (dinvCol ei) (shapeCast S1x256 b1 shapeCasts_S256_S1x256)

/-- Layer 2 as the kernel program computes it (no rectifier). -/
def layer2 (h : FVec Ideal S50000x256 .f32) (ei : IVec S2x800000 32) (w2 : FVec Ideal S256x128 .f32) (b2 : FVec Ideal S128 .f32) :
    FVec Ideal S50000x128 .f32 :=
  GcnSpec.scaleShift (N := 50000) (M := 128) (aggregate2 (GcnSpec.scaledProduct (N := 50000) (K := 256) (M := 128) h w2 (dinvCol ei)) ei)
    (dinvCol ei) (shapeCast S1x128 b2 shapeCasts_S128_S1x128)

/-- The kernel program's result as a function of its six arguments. -/
def kernelOut (x : FVec Ideal S50000x128 .f32) (ei : IVec S2x800000 32) (w1 : FVec Ideal S128x256 .f32) (b1 : FVec Ideal S256 .f32)
    (w2 : FVec Ideal S256x128 .f32) (b2 : FVec Ideal S128 .f32) : FVec Ideal S50000x128 .f32 :=
  layer2 (layer1 x ei w1 b1) ei w2 b2

end Cert.KernelIdeal.Val

end
-- ==== Proof.Region0.lean ====
/-
  The dense transform of the first layer, read off the run of its pipeline: ten grid points, point `t` holding rows
  5000 t … 5000 t + 4999 of the features and of the scale column and all of the weights, and writing rows
  5000 t … 5000 t + 4999 of the result.  Entry (p, q) of what a point writes is the sum over the contracted axis of
  its block's row p times the weights' column q, scaled by the column block's entry of row p; a block's entry (p, ·)
  is the array's entry (5000 t + p, ·); the ten row blocks tile the 50000 rows.  So the result array ends holding,
  at every (n, f), the sum over k of x[n, k] · w[k, f], times d[n, 0].
-/
import proofs.«163016_j82188494176916_2_alg».proof.Proof.Gen.KernelIdeal.Frame
import proofs.«163016_j82188494176916_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A column [5000,1] broadcast along the lanes to [5000,256] reads, at (p, q), the column's entry of row p. -/
theorem colBroadcast_apply (x : Vec Ideal S5000x1 .f32) (p : Fin 5000) (q : Fin 256) :
    broadcastTo S5000x256 x broadcasts_S5000x1_S5000x256 (ix2 p q) = x (ix2 p (0 : Fin 1)) := by
  refine broadcastTo_apply x broadcasts_S5000x1_S5000x256 (ix2 p q) (ix2 p (0 : Fin 1)) (fun a => ?_)
  match a with
  | ⟨0, _⟩ => rfl
  | ⟨1, _⟩ => rfl

/-- The left operand's row coordinate is the output's row coordinate. -/
theorem lhs_row (i : S5000x256.Idx) (r : dot_S5000x128_S128x256_S5000x256_1_0_0_1_n_n.contr.Idx) :
    (dot_S5000x128_S128x256_S5000x256_1_0_0_1_n_n.lhsIdx i r 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- The left operand's column coordinate is the contracted one. -/
theorem lhs_col (i : S5000x256.Idx) (r : dot_S5000x128_S128x256_S5000x256_1_0_0_1_n_n.contr.Idx) :
    (dot_S5000x128_S128x256_S5000x256_1_0_0_1_n_n.lhsIdx i r 1).val = (r ⟨0, by decide⟩).val :=
  dot_S5000x128_S128x256_S5000x256_1_0_0_1_n_n.lhsIdx_val_of_single rfl i r
/-- The right operand's row coordinate is the contracted one. -/
theorem rhs_row (i : S5000x256.Idx) (r : dot_S5000x128_S128x256_S5000x256_1_0_0_1_n_n.contr.Idx) :
    (dot_S5000x128_S128x256_S5000x256_1_0_0_1_n_n.rhsIdx i r 0).val = (r ⟨0, by decide⟩).val :=
  dot_S5000x128_S128x256_S5000x256_1_0_0_1_n_n.rhsIdx_val_of_single rfl i r
/-- The right operand's column coordinate is the output's column coordinate. -/
theorem rhs_col (i : S5000x256.Idx) (r : dot_S5000x128_S128x256_S5000x256_1_0_0_1_n_n.contr.Idx) :
    (dot_S5000x128_S128x256_S5000x256_1_0_0_1_n_n.rhsIdx i r 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block product into a zero accumulator, at (p, q): the sum over the contracted axis of row p times column q. -/
theorem matmul_apply0 (a : FVec Ideal S5000x128 .bf16) (b : FVec Ideal S128x256 .bf16) (p : Fin 5000) (q : Fin 256) :
    matmul dot_S5000x128_S128x256_S5000x256_1_0_0_1_n_n none a b (constant S5000x256 .f32 0x00000000#32) (ix2 p q)
      = ∑ k : Fin 128, a (ix2 p k) * b (ix2 k q) := by
  refine (Ideal.matmul_constant_zero_apply dot_S5000x128_S128x256_S5000x256_1_0_0_1_n_n none a b (ix2 p q)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun d => Fin.ext (by
    match d with
    | ⟨0, _⟩ => exact lhs_row _ _
    | ⟨1, _⟩ => exact (lhs_col _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun d => Fin.ext (by
    match d with
    | ⟨0, _⟩ => exact (rhs_row _ _).trans hk
    | ⟨1, _⟩ => exact rhs_col _ _)
  rw [el, er]

/-- The body's payload at (p, q): row p of the first block times column q of the weights, summed over the
    contracted axis (the format changes are the identity on extended reals, the product starts from zero), then scaled
    by the column block's entry of row p. -/
theorem pay_apply (x0 : Vec Ideal S5000x128 .f32) (x1 : Vec Ideal S128x256 .f32) (x2 : Vec Ideal S5000x1 .f32)
    (p : Fin 5000) (q : Fin 256) :
    k0_pay1 (F := Ideal) x0 x1 x2 (ix2 p q) = (∑ k : Fin 128, x0 (ix2 p k) * x1 (ix2 k q)) * x2 (ix2 p (0 : Fin 1)) := by
  unfold k0_pay1
  simp only [shapeCast_self]
  refine (mulf_apply _ _ (ix2 p q)).trans ?_
  rw [matmul_apply0, colBroadcast_apply]
  rfl

variable (V : (c : Dev nD) → (b : Ref sig .tc) → Buf (Elt Ideal) ((c : Thread nD τ).loc b))

/-- The payload of blocks that hold, entry by entry, the rows and columns of three arrays that the output entry `i` of
    the scaled product reads, is that entry. -/
theorem pay_eq_scaledProduct (A0 : S50000x128.Idx → EReal) (A1 : S128x256.Idx → EReal) (A2 : S50000x1.Idx → EReal)
    (x0 : Vec Ideal S5000x128 .f32) (x1 : Vec Ideal S128x256 .f32) (x2 : Vec Ideal S5000x1 .f32)
    (p : Fin 5000) (q : Fin 256) (i : S50000x256.Idx)
    (h0 : ∀ k : Fin 128, x0 (ix2 p k) = A0 (ix2 (i 0) k))
    (h1 : ∀ k : Fin 128, x1 (ix2 k q) = A1 (ix2 k (i 1)))
    (h2 : x2 (ix2 p (0 : Fin 1)) = A2 (ix2 (i 0) (0 : Fin 1))) :
    k0_pay1 (F := Ideal) x0 x1 x2 (ix2 p q) = GcnSpec.scaledProduct (N := 50000) (K := 128) (M := 256) A0 A1 A2 i := by
  rw [pay_apply, h2]
  unfold GcnSpec.scaledProduct
  congr 1
  exact Finset.sum_congr rfl fun k _ => by rw [h0 k, h1 k]

/-- The printed index maps over the ten points: the three row-blocked windows are at row block `t`, the weights'
    window stays at block (0, 0), and every column block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the first window's block at point `t` is entry (5000 t + p, k) of its array. -/
theorem blk0_apply (c : Dev nD) (t : Fin cfg0.N) (p : Fin 5000) (k : Fin 128) (i : S50000x128.Idx)
    (hi0 : (i 0).val = t.val * 5000 + p.val) (hi1 : (i 1).val = k.val) :
    (iblk0 V c 0 t : Vec Ideal S5000x128 .f32) (ix2 p k) = (V c main_arg0 : S50000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, hi0]; omega
  | ⟨1, _⟩ => show win0_0.index t (1 : Fin 2) * 128 + 1 * k.val = (i 1).val; rw [e1, hi1]; omega

/-- The weights' window holds its whole array at every point. -/
theorem blk1_apply (c : Dev nD) (t : Fin cfg0.N) (k : Fin 128) (q : Fin 256) (i : S128x256.Idx)
    (hi0 : (i 0).val = k.val) (hi1 : (i 1).val = q.val) :
    (iblk0 V c 1 t : Vec Ideal S128x256 .f32) (ix2 k q) = (V c main_arg2 : S128x256.Idx → EReal) i := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = (i 0).val; rw [e2, hi0]; omega
  | ⟨1, _⟩ => show win0_1.index t (1 : Fin 2) * 256 + 1 * q.val = (i 1).val; rw [e3, hi1]; omega

/-- Entry (p, 0) of the scale column's block at point `t` is entry (5000 t + p, 0) of the column. -/
theorem blk2_apply (c : Dev nD) (t : Fin cfg0.N) (p : Fin 5000) (i : S50000x1.Idx)
    (hi0 : (i 0).val = t.val * 5000 + p.val) :
    (iblk0 V c 2 t : Vec Ideal S5000x1 .f32) (ix2 p (0 : Fin 1)) = (V c main_call0_v15 : S50000x1.Idx → EReal) i := by
  obtain ⟨-, -, -, -, e4, e5, -⟩ := idx_facts t
  unfold iblk0
  rw [View.read_apply]
  show V c main_call0_v15 _ = V c main_call0_v15 _
  congr 1
  funext a
  apply Fin.ext
  match a with
  | ⟨0, _⟩ => show win0_2.index t (0 : Fin 2) * 5000 + 1 * p.val = (i 0).val; rw [e4, hi0]; omega
  | ⟨1, _⟩ => show win0_2.index t (1 : Fin 2) * 1 + 1 * 0 = (i 1).val; rw [e5]; have h1 : (i 1).val < 1 := (i 1).isLt; omega

/-- Entry (p, q) of the output window's block at point `t` sits at (5000 t + p, q) of the output array. -/
theorem out_emb (t : Fin cfg0.N) (p : Fin 5000) (q : Fin 256) :
    ((((cfg0.win 3).blk t).view.emb (ix2 p q) : S50000x256.Idx) 0).val = t.val * 5000 + p.val
    ∧ ((((cfg0.win 3).blk t).view.emb (ix2 p q) : S50000x256.Idx) 1).val = q.val := by
  obtain ⟨-, -, -, -, -, -, e6, e7⟩ := idx_facts t
  constructor
  · show win0_3.index t (0 : Fin 2) * 5000 + 1 * p.val = _; rw [e6]; omega
  · show win0_3.index t (1 : Fin 2) * 256 + 1 * q.val = _; rw [e7]; omega

/-- WHAT POINT `t` WRITES BACK is block `t` of the scaled product of the three arrays as the region finds them. -/
theorem flushed_eq (c : Dev nD) (t : Fin cfg0.N) :
    (dat0 (F := Ideal) V c).flushed 3 t = ((cfg0.win 3).blk t).view.read (Elt Ideal)
      (GcnSpec.scaledProduct (N := 50000) (K := 128) (M := 256) (V c main_arg0) (V c main_arg2) (V c main_call0_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S5000x1) hz]
  refine funext fun (j : S5000x256.Idx) => ?_
  obtain ⟨p, q, rfl⟩ : ∃ (p : Fin 5000) (q : Fin 256), j = ix2 p q := ⟨j 0, j 1, eq_ix2 j⟩
  obtain ⟨o0, o1⟩ := out_emb t p q
  show k0_pay1 (F := Ideal) (iblk0 V c 0 t) (iblk0 V c 1 t) (iblk0 V c 2 t) (ix2 p q)
    = GcnSpec.scaledProduct (N := 50000) (K := 128) (M := 256) (V c main_arg0) (V c main_arg2) (V c main_call0_v15)
        (((cfg0.win 3).blk t).view.emb (ix2 p q))
  refine pay_eq_scaledProduct (V c main_arg0) (V c main_arg2) (V c main_call0_v15) (iblk0 V c 0 t) (iblk0 V c 1 t) (iblk0 V c 2 t)
    p q (((cfg0.win 3).blk t).view.emb (ix2 p q)) (fun k => ?_) (fun k => ?_) ?_
  · exact blk0_apply V c t p k _ o0 rfl
  · exact blk1_apply V c t k q _ rfl o1
  · exact blk2_apply V c t p _ o0

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_call0_v16).slice (win0_3.rect t)).set ↔ _
  rw [View.set_slice_whole, Rect.mem_set_unit]
  exact Iff.rfl

/-- Row `r` of the output array is covered by the point `r / 5000`: the ten row blocks tile the 50000 rows. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by have h := N_0; show (i 0).val / 5000 < grid0.N; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 256 ≤ (i 1).val ∧ (i 1).val < win0_3.index t (1 : Fin 2) * 256 + 256; rw [e7]; omega

/-- THE OUTPUT ARRAY after the region: the product of the first array with the weights, each row scaled by its entry
    of the scale column. -/
theorem final (c : Dev nD) :
    (dat0 (F := Ideal) V c).arrAt 3 cfg0.N
      = GcnSpec.scaledProduct (N := 50000) (K := 128) (M := 256) (V c main_arg0) (V c main_arg2) (V c main_call0_v15) :=
  (dat0 (F := Ideal) V c).arrAt_eq_of_cover 3 _ (fun t _ => flushed_eq V c t) cover

end Cert.KernelIdeal.Region0

end
-- ==== Proof.Region1.lean ====
/-
  The first pointwise region: each of the ten grid points takes 5000 rows of the aggregated array, the matching 5000
  entries of the scale column and the whole bias row, and writes  max (a · d + b) 0  entry by entry into the same rows
  of the output.  Read entry by entry and put together over the ten blocks, the output array is the scaled, shifted and
  rectified aggregate as one function of the three arrays.
-/
import proofs.«163016_j82188494176916_2_alg».proof.Proof.Gen.KernelIdeal.Frame
import proofs.«163016_j82188494176916_2_alg».proof.Proof.Spec
import Idealize.ShloMosaic.Lib.Pipeline.Value
import Idealize.ShloMosaic.Lib.ValueIdx
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block rectangle, as the constant function. -/
theorem hz : (![0, 0] : Fin 2 → Nat) = fun _ => 0 := funext fun a => by fin_cases a <;> rfl

/-- The single-precision word of all zero bits is the extended real `0`. -/
theorem zero_word : Ideal.ofBits .f32 0x00000000#32 = 0 := by simp [Ideal.ofBits, Ideal.ieee]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: the aggregate's entry times the row's scale, plus the bias of
    column `q`, rectified. -/
theorem pay_apply (v0 : Vec Ideal S5000x1 .f32) (v4 : Vec Ideal S1x256 .f32) (v8 : Vec Ideal S5000x256 .f32)
    (p : Fin 5000) (q : Fin 256) :
    Gen.k1_pay1 v0 v4 v8 (ix2 p q) = max (v8 (ix2 p q) * v0 (ix2 p (0 : Fin 1)) + v4 (ix2 (0 : Fin 1) q)) 0 := by
  unfold Gen.k1_pay1
  simp only [shapeCast_self]
  rw [maximumf_apply, addf_apply, mulf_apply, broadcast_apply, broadcastTo_a1_ab_apply, broadcastTo_1b_ab_apply]
  exact congrArg (max _) zero_word

variable (V : (c : Dev nD) → (b : Ref sig .tc) → Buf (Elt Ideal) ((c : Thread nD τ).loc b))

/-- What the output array ends holding: the aggregate scaled row by row, shifted by the bias row and rectified, as one
    function of the three arrays the region reads. -/
abbrev G (c : Dev nD) : S50000x256.Idx → EReal :=
  GcnSpec.scaleShiftRelu (N := 50000) (M := 256) (V c main_call0_v26) (V c main_call0_v15) (V c main_call0_v27)

/-- The index maps over the ten grid points: the aggregate's, the scale column's and the output's block row is the
    point's number, the bias row's block is always the first, and every block column is the first. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, q)` of the aggregate's block at point `t` is entry `(5000 t + p, q)` of the aggregate. -/
theorem agg_blk_apply (c : Dev nD) (t : Fin cfg1.N) (x : S5000x256.Idx) (k : S50000x256.Idx)
    (hk0 : (k 0).val = 5000 * t.val + (x 0).val) (hk1 : (k 1).val = (x 1).val) :
    (Gen.iblk1 V c 0 t : Vec Ideal S5000x256 .f32) x = (V c main_call0_v26 : S50000x256.Idx → EReal) k := by
  obtain ⟨e00, e01, -, -, -, -, -, -⟩ := idx_facts t
  unfold Gen.iblk1
  rw [View.read_apply]
  show V c main_call0_v26 _ = V c main_call0_v26 _
  congr 1
  funext a
  apply Fin.ext
  match a with
  | ⟨0, _⟩ => show win1_0.index t (0 : Fin 2) * 5000 + 1 * (x 0).val = (k 0).val; rw [e00, hk0]; omega
  | ⟨1, _⟩ => show win1_0.index t (1 : Fin 2) * 256 + 1 * (x 1).val = (k 1).val; rw [e01, hk1]; omega

/-- Entry `(p, 0)` of the scale column's block at point `t` is entry `(5000 t + p, 0)` of the column. -/
theorem scale_blk_apply (c : Dev nD) (t : Fin cfg1.N) (x : S5000x1.Idx) (k : S50000x1.Idx)
    (hk0 : (k 0).val = 5000 * t.val + (x 0).val) (hk1 : (k 1).val = (x 1).val) :
    (Gen.iblk1 V c 1 t : Vec Ideal S5000x1 .f32) x = (V c main_call0_v15 : S50000x1.Idx → EReal) k := by
  obtain ⟨-, -, e10, e11, -, -, -, -⟩ := idx_facts t
  unfold Gen.iblk1
  rw [View.read_apply]
  show V c main_call0_v15 _ = V c main_call0_v15 _
  congr 1
  funext a
  apply Fin.ext
  match a with
  | ⟨0, _⟩ => show win1_1.index t (0 : Fin 2) * 5000 + 1 * (x 0).val = (k 0).val; rw [e10, hk0]; omega
  | ⟨1, _⟩ => show win1_1.index t (1 : Fin 2) * 1 + 1 * (x 1).val = (k 1).val; rw [e11, hk1]; omega

/-- The bias row's block at any point is the whole row. -/
theorem bias_blk_apply (c : Dev nD) (t : Fin cfg1.N) (x : S1x256.Idx) (k : S1x256.Idx)
    (hk0 : (k 0).val = (x 0).val) (hk1 : (k 1).val = (x 1).val) :
    (Gen.iblk1 V c 2 t : Vec Ideal S1x256 .f32) x = (V c main_call0_v27 : S1x256.Idx → EReal) k := by
  obtain ⟨-, -, -, -, e20, e21, -, -⟩ := idx_facts t
  unfold Gen.iblk1
  rw [View.read_apply]
  show V c main_call0_v27 _ = V c main_call0_v27 _
  congr 1
  funext a
  apply Fin.ext
  match a with
  | ⟨0, _⟩ => show win1_2.index t (0 : Fin 2) * 1 + 1 * (x 0).val = (k 0).val; rw [e20, hk0]; omega
  | ⟨1, _⟩ => show win1_2.index t (1 : Fin 2) * 256 + 1 * (x 1).val = (k 1).val; rw [e21, hk1]; omega

/-- What point `t` writes back is block `t` of `G`. -/
theorem flushed_eq (c : Dev nD) (t : Fin cfg1.N) :
    (Gen.dat1 V c).flushed 3 t = ((cfg1.win 3).blk t).view.read (Elt Ideal) (G V c) := by
  show (cfg1.win 3).cut (grid1.coords t) ((Gen.dat1 V c).after 3 t) = _
  rw [Gen.after1_3]
  unfold Gen.out1_3
  rw [View.canon_unit_zero hz]
  simp only [View.ld_unit_zero (S := S5000x1) hz, View.ld_unit_zero (S := S1x256) hz, View.ld_unit_zero (S := S5000x256) hz]
  obtain ⟨-, -, -, -, -, -, e30, e31⟩ := idx_facts t
  funext j
  obtain ⟨p, q, rfl⟩ : ∃ (p : Fin 5000) (q : Fin 256), j = ix2 p q := ⟨j 0, j 1, eq_ix2 j⟩
  refine (pay_apply (Gen.iblk1 V c 1 t) (Gen.iblk1 V c 2 t) (Gen.iblk1 V c 0 t) p q).trans ?_
  rw [View.read_apply]
  have h0 : ((((cfg1.win 3).blk t).view.emb (ix2 p q)) 0).val = 5000 * t.val + p.val := by
    show win1_3.index t (0 : Fin 2) * 5000 + 1 * p.val = _; rw [e30]; omega
  have h1 : ((((cfg1.win 3).blk t).view.emb (ix2 p q)) 1).val = q.val := by
    show win1_3.index t (1 : Fin 2) * 256 + 1 * q.val = _; rw [e31]; omega
  refine congrArg₂ max (congrArg₂ (· + ·) (congrArg₂ (· * ·) ?_ ?_) ?_) rfl
  · exact agg_blk_apply V c t (ix2 p q) _ h0 h1
  · exact scale_blk_apply V c t (ix2 p (0 : Fin 1)) _ h0 rfl
  · exact bias_blk_apply V c t (ix2 (0 : Fin 1) q) _ rfl h1

/-- An index of the output array is in point `t`'s block iff each coordinate is in the block's range on its axis. -/
theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_call0_v28).slice (win1_3.rect t)).set ↔ _
  rw [View.set_slice_whole, Rect.mem_set_unit]
  exact Iff.rfl

/-- Row `r` of the output lies in the block of point `r / 5000`: the ten blocks of 5000 rows fill the 50000 rows. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := Gen.N_1
  obtain ⟨t, ht⟩ : ∃ t : Fin cfg1.N, t.val = (i 0).val / 5000 := ⟨⟨(i 0).val / 5000, by rw [hN]; omega⟩, rfl⟩
  obtain ⟨-, -, -, -, -, -, e30, e31⟩ := idx_facts t
  refine ⟨t, Gen.flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 256 ≤ (i 1).val ∧ (i 1).val < win1_3.index t (1 : Fin 2) * 256 + 256
    rw [e31]; omega

/-- The output array after the region's ten points is `G` of the arrays the region found. -/
theorem final (V : (c : Dev nD) → (b : Ref sig .tc) → Buf (Elt Ideal) ((c : Thread nD τ).loc b)) (c : Dev nD) :
    (Gen.dat1 (F := Ideal) V c).arrAt 3 cfg1.N
      = GcnSpec.scaleShiftRelu (N := 50000) (M := 256) (V c main_call0_v26) (V c main_call0_v15) (V c main_call0_v27) :=
  (Gen.dat1 V c).arrAt_eq_of_cover 3 (G V c) (fun t _ => flushed_eq V c t) cover

end Cert.KernelIdeal.Region1

end
-- ==== Proof.Region2.lean ====
/-
  The dense transform of the second layer, read off the run of its pipeline: ten grid points, point `t` holding rows
  5000 t … 5000 t + 4999 of the first layer's result and of the scale column and all of the weights, and writing rows
  5000 t … 5000 t + 4999 of the result.  Entry (p, q) of what a point writes is the sum over the contracted axis of
  its block's row p times the weights' column q, scaled by the column block's entry of row p; a block's entry (p, ·)
  is the array's entry (5000 t + p, ·); the ten row blocks tile the 50000 rows.  So the result array ends holding,
  at every (n, f), the sum over k of x[n, k] · w[k, f], times d[n, 0].
-/
import proofs.«163016_j82188494176916_2_alg».proof.Proof.Gen.KernelIdeal.Frame
import proofs.«163016_j82188494176916_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A column [5000,1] broadcast along the lanes to [5000,128] reads, at (p, q), the column's entry of row p. -/
theorem colBroadcast_apply (x : Vec Ideal S5000x1 .f32) (p : Fin 5000) (q : Fin 128) :
    broadcastTo S5000x128 x broadcasts_S5000x1_S5000x128 (ix2 p q) = x (ix2 p (0 : Fin 1)) := by
  refine broadcastTo_apply x broadcasts_S5000x1_S5000x128 (ix2 p q) (ix2 p (0 : Fin 1)) (fun a => ?_)
  match a with
  | ⟨0, _⟩ => rfl
  | ⟨1, _⟩ => rfl

/-- The left operand's row coordinate is the output's row coordinate. -/
theorem lhs_row (i : S5000x128.Idx) (r : dot_S5000x256_S256x128_S5000x128_1_0_0_1_n_n.contr.Idx) :
    (dot_S5000x256_S256x128_S5000x128_1_0_0_1_n_n.lhsIdx i r 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the contracted one. -/
theorem lhs_col (i : S5000x128.Idx) (r : dot_S5000x256_S256x128_S5000x128_1_0_0_1_n_n.contr.Idx) :
    (dot_S5000x256_S256x128_S5000x128_1_0_0_1_n_n.lhsIdx i r 1).val = (r ⟨0, by decide⟩).val :=
  dot_S5000x256_S256x128_S5000x128_1_0_0_1_n_n.lhsIdx_val_of_single rfl i r
/-- The right operand's row coordinate is the contracted one. -/
theorem rhs_row (i : S5000x128.Idx) (r : dot_S5000x256_S256x128_S5000x128_1_0_0_1_n_n.contr.Idx) :
    (dot_S5000x256_S256x128_S5000x128_1_0_0_1_n_n.rhsIdx i r 0).val = (r ⟨0, by decide⟩).val :=
  dot_S5000x256_S256x128_S5000x128_1_0_0_1_n_n.rhsIdx_val_of_single rfl i r
/-- The right operand's column coordinate is the output's column coordinate. -/
theorem rhs_col (i : S5000x128.Idx) (r : dot_S5000x256_S256x128_S5000x128_1_0_0_1_n_n.contr.Idx) :
    (dot_S5000x256_S256x128_S5000x128_1_0_0_1_n_n.rhsIdx i r 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into a zero accumulator, at (p, q): the sum over the contracted axis of row p times column q. -/
theorem matmul_apply0 (a : FVec Ideal S5000x256 .bf16) (b : FVec Ideal S256x128 .bf16) (p : Fin 5000) (q : Fin 128) :
    matmul dot_S5000x256_S256x128_S5000x128_1_0_0_1_n_n none a b (constant S5000x128 .f32 0x00000000#32) (ix2 p q)
      = ∑ k : Fin 256, a (ix2 p k) * b (ix2 k q) := by
  refine (Ideal.matmul_constant_zero_apply dot_S5000x256_S256x128_S5000x128_1_0_0_1_n_n none a b (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun d => Fin.ext (by
    match d with
    | ⟨0, _⟩ => exact lhs_row _ _
    | ⟨1, _⟩ => exact (lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun d => Fin.ext (by
    match d with
    | ⟨0, _⟩ => exact (rhs_row _ _).trans hk
    | ⟨1, _⟩ => exact rhs_col _ _)
  rw [el, er]

/-- The body's payload at (p, q): row p of the first block times column q of the weights, summed over the
    contracted axis (the format changes are the identity on extended reals, the product starts from zero), then scaled
    by the column block's entry of row p. -/
theorem pay_apply (x0 : Vec Ideal S5000x256 .f32) (x1 : Vec Ideal S256x128 .f32) (x2 : Vec Ideal S5000x1 .f32)
    (p : Fin 5000) (q : Fin 128) :
    k2_pay1 (F := Ideal) x0 x1 x2 (ix2 p q) = (∑ k : Fin 256, x0 (ix2 p k) * x1 (ix2 k q)) * x2 (ix2 p (0 : Fin 1)) := by
  unfold k2_pay1
  simp only [shapeCast_self]
  refine (mulf_apply _ _ (ix2 p q)).trans ?_
  rw [matmul_apply0, colBroadcast_apply]
  rfl

variable (V : (c : Dev nD) → (b : Ref sig .tc) → Buf (Elt Ideal) ((c : Thread nD τ).loc b))

/-- The payload of blocks that hold, entry by entry, the rows and columns of three arrays that the output entry `i` of
    the scaled product reads, is that entry. -/
theorem pay_eq_scaledProduct (A0 : S50000x256.Idx → EReal) (A1 : S256x128.Idx → EReal) (A2 : S50000x1.Idx → EReal)
    (x0 : Vec Ideal S5000x256 .f32) (x1 : Vec Ideal S256x128 .f32) (x2 : Vec Ideal S5000x1 .f32)
    (p : Fin 5000) (q : Fin 128) (i : S50000x128.Idx)
    (h0 : ∀ k : Fin 256, x0 (ix2 p k) = A0 (ix2 (i 0) k))
    (h1 : ∀ k : Fin 256, x1 (ix2 k q) = A1 (ix2 k (i 1)))
    (h2 : x2 (ix2 p (0 : Fin 1)) = A2 (ix2 (i 0) (0 : Fin 1))) :
    k2_pay1 (F := Ideal) x0 x1 x2 (ix2 p q) = GcnSpec.scaledProduct (N := 50000) (K := 256) (M := 128) A0 A1 A2 i := by
  rw [pay_apply, h2]
  unfold GcnSpec.scaledProduct
  congr 1
  exact Finset.sum_congr rfl fun k _ => by rw [h0 k, h1 k]

/-- The printed index maps over the ten points: the three row-blocked windows are at row block `t`, the weights'
    window stays at block (0, 0), and every column block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry (p, k) of the first window's block at point `t` is entry (5000 t + p, k) of its array. -/
theorem blk0_apply (c : Dev nD) (t : Fin cfg2.N) (p : Fin 5000) (k : Fin 256) (i : S50000x256.Idx)
    (hi0 : (i 0).val = t.val * 5000 + p.val) (hi1 : (i 1).val = k.val) :
    (iblk2 V c 0 t : Vec Ideal S5000x256 .f32) (ix2 p k) = (V c main_call0_v28 : S50000x256.Idx → EReal) i := by
  obtain ⟨e0, e1, -⟩ := idx_facts t
  unfold iblk2
  rw [View.read_apply]
  show V c main_call0_v28 _ = V c main_call0_v28 _
  congr 1
  funext a
  apply Fin.ext
  match a with
  | ⟨0, _⟩ => show win2_0.index t (0 : Fin 2) * 5000 + 1 * p.val = (i 0).val; rw [e0, hi0]; omega
  | ⟨1, _⟩ => show win2_0.index t (1 : Fin 2) * 256 + 1 * k.val = (i 1).val; rw [e1, hi1]; omega

/-- The weights' window holds its whole array at every point. -/
theorem blk1_apply (c : Dev nD) (t : Fin cfg2.N) (k : Fin 256) (q : Fin 128) (i : S256x128.Idx)
    (hi0 : (i 0).val = k.val) (hi1 : (i 1).val = q.val) :
    (iblk2 V c 1 t : Vec Ideal S256x128 .f32) (ix2 k q) = (V c main_arg4 : S256x128.Idx → EReal) i := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t (0 : Fin 2) * 256 + 1 * k.val = (i 0).val; rw [e2, hi0]; omega
  | ⟨1, _⟩ => show win2_1.index t (1 : Fin 2) * 128 + 1 * q.val = (i 1).val; rw [e3, hi1]; omega

/-- Entry (p, 0) of the scale column's block at point `t` is entry (5000 t + p, 0) of the column. -/
theorem blk2_apply (c : Dev nD) (t : Fin cfg2.N) (p : Fin 5000) (i : S50000x1.Idx)
    (hi0 : (i 0).val = t.val * 5000 + p.val) :
    (iblk2 V c 2 t : Vec Ideal S5000x1 .f32) (ix2 p (0 : Fin 1)) = (V c main_call0_v15 : S50000x1.Idx → EReal) i := by
  obtain ⟨-, -, -, -, e4, e5, -⟩ := idx_facts t
  unfold iblk2
  rw [View.read_apply]
  show V c main_call0_v15 _ = V c main_call0_v15 _
  congr 1
  funext a
  apply Fin.ext
  match a with
  | ⟨0, _⟩ => show win2_2.index t (0 : Fin 2) * 5000 + 1 * p.val = (i 0).val; rw [e4, hi0]; omega
  | ⟨1, _⟩ => show win2_2.index t (1 : Fin 2) * 1 + 1 * 0 = (i 1).val; rw [e5]; have h1 : (i 1).val < 1 := (i 1).isLt; omega

/-- Entry (p, q) of the output window's block at point `t` sits at (5000 t + p, q) of the output array. -/
theorem out_emb (t : Fin cfg2.N) (p : Fin 5000) (q : Fin 128) :
    ((((cfg2.win 3).blk t).view.emb (ix2 p q) : S50000x128.Idx) 0).val = t.val * 5000 + p.val
    ∧ ((((cfg2.win 3).blk t).view.emb (ix2 p q) : S50000x128.Idx) 1).val = q.val := by
  obtain ⟨-, -, -, -, -, -, e6, e7⟩ := idx_facts t
  constructor
  · show win2_3.index t (0 : Fin 2) * 5000 + 1 * p.val = _; rw [e6]; omega
  · show win2_3.index t (1 : Fin 2) * 128 + 1 * q.val = _; rw [e7]; omega

/-- WHAT POINT `t` WRITES BACK is block `t` of the scaled product of the three arrays as the region finds them. -/
theorem flushed_eq (c : Dev nD) (t : Fin cfg2.N) :
    (dat2 (F := Ideal) V c).flushed 3 t = ((cfg2.win 3).blk t).view.read (Elt Ideal)
      (GcnSpec.scaledProduct (N := 50000) (K := 256) (M := 128) (V c main_call0_v28) (V c main_arg4) (V c main_call0_v15)) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x128) hz, View.ld_unit_zero (S := S5000x1) hz]
  refine funext fun (j : S5000x128.Idx) => ?_
  obtain ⟨p, q, rfl⟩ : ∃ (p : Fin 5000) (q : Fin 128), j = ix2 p q := ⟨j 0, j 1, eq_ix2 j⟩
  obtain ⟨o0, o1⟩ := out_emb t p q
  show k2_pay1 (F := Ideal) (iblk2 V c 0 t) (iblk2 V c 1 t) (iblk2 V c 2 t) (ix2 p q)
    = GcnSpec.scaledProduct (N := 50000) (K := 256) (M := 128) (V c main_call0_v28) (V c main_arg4) (V c main_call0_v15)
        (((cfg2.win 3).blk t).view.emb (ix2 p q))
  refine pay_eq_scaledProduct (V c main_call0_v28) (V c main_arg4) (V c main_call0_v15) (iblk2 V c 0 t) (iblk2 V c 1 t) (iblk2 V c 2 t)
    p q (((cfg2.win 3).blk t).view.emb (ix2 p q)) (fun k => ?_) (fun k => ?_) ?_
  · exact blk0_apply V c t p k _ o0 rfl
  · exact blk1_apply V c t k q _ rfl o1
  · exact blk2_apply V c t p _ o0

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_call0_v29).slice (win2_3.rect t)).set ↔ _
  rw [View.set_slice_whole, Rect.mem_set_unit]
  exact Iff.rfl

/-- Row `r` of the output array is covered by the point `r / 5000`: the ten row blocks tile the 50000 rows. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by have h := N_2; show (i 0).val / 5000 < grid2.N; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 128 ≤ (i 1).val ∧ (i 1).val < win2_3.index t (1 : Fin 2) * 128 + 128; rw [e7]; omega

/-- THE OUTPUT ARRAY after the region: the product of the first array with the weights, each row scaled by its entry
    of the scale column. -/
theorem final (c : Dev nD) :
    (dat2 (F := Ideal) V c).arrAt 3 cfg2.N
      = GcnSpec.scaledProduct (N := 50000) (K := 256) (M := 128) (V c main_call0_v28) (V c main_arg4) (V c main_call0_v15) :=
  (dat2 (F := Ideal) V c).arrAt_eq_of_cover 3 _ (fun t _ => flushed_eq V c t) cover

end Cert.KernelIdeal.Region2

end
-- ==== Proof.Region3.lean ====
/-
  The second pointwise region: each of the ten grid points takes 5000 rows of the aggregated array, the matching 5000
  entries of the scale column and the whole bias row, and writes  a · d + b  entry by entry into the same rows of the
  output.  Read entry by entry and put together over the ten blocks, the output array is the scaled and shifted
  aggregate as one function of the three arrays.
-/
import proofs.«163016_j82188494176916_2_alg».proof.Proof.Gen.KernelIdeal.Frame
import proofs.«163016_j82188494176916_2_alg».proof.Proof.Spec
import Idealize.ShloMosaic.Lib.Pipeline.Value
import Idealize.ShloMosaic.Lib.ValueIdx
import Idealize.ShloMosaic.Lib.ValueLayout

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a whole-block rectangle, as the constant function. -/
theorem hz : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: the aggregate's entry times the row's scale, plus the bias of
    column `q`. -/
theorem pay_apply (v0 : Vec Ideal S5000x1 .f32) (v4 : Vec Ideal S1x128 .f32) (v8 : Vec Ideal S5000x128 .f32)
    (p : Fin 5000) (q : Fin 128) :
    Gen.k3_pay1 v0 v4 v8 (ix2 p q) = v8 (ix2 p q) * v0 (ix2 p (0 : Fin 1)) + v4 (ix2 (0 : Fin 1) q) := by
  unfold Gen.k3_pay1
  simp only [shapeCast_self]
  rw [addf_apply, mulf_apply, broadcastTo_a1_ab_apply, broadcastTo_1b_ab_apply]

variable (V : (c : Dev nD) → (b : Ref sig .tc) → Buf (Elt Ideal) ((c : Thread nD τ).loc b))

/-- What the output array ends holding: the aggregate scaled row by row and shifted by the bias row, as one function
    of the three arrays the region reads. -/
abbrev G (c : Dev nD) : S50000x128.Idx → EReal :=
  GcnSpec.scaleShift (N := 50000) (M := 128) (V c main_call0_v39) (V c main_call0_v15) (V c main_call0_v40)

/-- The index maps over the ten grid points: the aggregate's, the scale column's and the output's block row is the
    point's number, the bias row's block is always the first, and every block column is the first. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `(p, q)` of the aggregate's block at point `t` is entry `(5000 t + p, q)` of the aggregate. -/
theorem agg_blk_apply (c : Dev nD) (t : Fin cfg3.N) (x : S5000x128.Idx) (k : S50000x128.Idx)
    (hk0 : (k 0).val = 5000 * t.val + (x 0).val) (hk1 : (k 1).val = (x 1).val) :
    (Gen.iblk3 V c 0 t : Vec Ideal S5000x128 .f32) x = (V c main_call0_v39 : S50000x128.Idx → EReal) k := by
  obtain ⟨e00, e01, -, -, -, -, -, -⟩ := idx_facts t
  unfold Gen.iblk3
  rw [View.read_apply]
  show V c main_call0_v39 _ = V c main_call0_v39 _
  congr 1
  funext a
  apply Fin.ext
  match a with
  | ⟨0, _⟩ => show win3_0.index t (0 : Fin 2) * 5000 + 1 * (x 0).val = (k 0).val; rw [e00, hk0]; omega
  | ⟨1, _⟩ => show win3_0.index t (1 : Fin 2) * 128 + 1 * (x 1).val = (k 1).val; rw [e01, hk1]; omega

/-- Entry `(p, 0)` of the scale column's block at point `t` is entry `(5000 t + p, 0)` of the column. -/
theorem scale_blk_apply (c : Dev nD) (t : Fin cfg3.N) (x : S5000x1.Idx) (k : S50000x1.Idx)
    (hk0 : (k 0).val = 5000 * t.val + (x 0).val) (hk1 : (k 1).val = (x 1).val) :
    (Gen.iblk3 V c 1 t : Vec Ideal S5000x1 .f32) x = (V c main_call0_v15 : S50000x1.Idx → EReal) k := by
  obtain ⟨-, -, e10, e11, -, -, -, -⟩ := idx_facts t
  unfold Gen.iblk3
  rw [View.read_apply]
  show V c main_call0_v15 _ = V c main_call0_v15 _
  congr 1
  funext a
  apply Fin.ext
  match a with
  | ⟨0, _⟩ => show win3_1.index t (0 : Fin 2) * 5000 + 1 * (x 0).val = (k 0).val; rw [e10, hk0]; omega
  | ⟨1, _⟩ => show win3_1.index t (1 : Fin 2) * 1 + 1 * (x 1).val = (k 1).val; rw [e11, hk1]; omega

/-- The bias row's block at any point is the whole row. -/
theorem bias_blk_apply (c : Dev nD) (t : Fin cfg3.N) (x : S1x128.Idx) (k : S1x128.Idx)
    (hk0 : (k 0).val = (x 0).val) (hk1 : (k 1).val = (x 1).val) :
    (Gen.iblk3 V c 2 t : Vec Ideal S1x128 .f32) x = (V c main_call0_v40 : S1x128.Idx → EReal) k := by
  obtain ⟨-, -, -, -, e20, e21, -, -⟩ := idx_facts t
  unfold Gen.iblk3
  rw [View.read_apply]
  show V c main_call0_v40 _ = V c main_call0_v40 _
  congr 1
  funext a
  apply Fin.ext
  match a with
  | ⟨0, _⟩ => show win3_2.index t (0 : Fin 2) * 1 + 1 * (x 0).val = (k 0).val; rw [e20, hk0]; omega
  | ⟨1, _⟩ => show win3_2.index t (1 : Fin 2) * 128 + 1 * (x 1).val = (k 1).val; rw [e21, hk1]; omega

/-- What point `t` writes back is block `t` of `G`. -/
theorem flushed_eq (c : Dev nD) (t : Fin cfg3.N) :
    (Gen.dat3 V c).flushed 3 t = ((cfg3.win 3).blk t).view.read (Elt Ideal) (G V c) := by
  show (cfg3.win 3).cut (grid3.coords t) ((Gen.dat3 V c).after 3 t) = _
  rw [Gen.after3_3]
  unfold Gen.out3_3
  rw [View.canon_unit_zero hz]
  simp only [View.ld_unit_zero (S := S5000x1) hz, View.ld_unit_zero (S := S1x128) hz, View.ld_unit_zero (S := S5000x128) hz]
  obtain ⟨-, -, -, -, -, -, e30, e31⟩ := idx_facts t
  funext j
  obtain ⟨p, q, rfl⟩ : ∃ (p : Fin 5000) (q : Fin 128), j = ix2 p q := ⟨j 0, j 1, eq_ix2 j⟩
  refine (pay_apply (Gen.iblk3 V c 1 t) (Gen.iblk3 V c 2 t) (Gen.iblk3 V c 0 t) p q).trans ?_
  rw [View.read_apply]
  have h0 : ((((cfg3.win 3).blk t).view.emb (ix2 p q)) 0).val = 5000 * t.val + p.val := by
    show win3_3.index t (0 : Fin 2) * 5000 + 1 * p.val = _; rw [e30]; omega
  have h1 : ((((cfg3.win 3).blk t).view.emb (ix2 p q)) 1).val = q.val := by
    show win3_3.index t (1 : Fin 2) * 128 + 1 * q.val = _; rw [e31]; omega
  refine congrArg₂ (· + ·) (congrArg₂ (· * ·) ?_ ?_) ?_
  · exact agg_blk_apply V c t (ix2 p q) _ h0 h1
  · exact scale_blk_apply V c t (ix2 p (0 : Fin 1)) _ h0 rfl
  · exact bias_blk_apply V c t (ix2 (0 : Fin 1) q) _ rfl h1

/-- An index of the output array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v0).slice (win3_3.rect t)).set ↔ _
  rw [View.set_slice_whole, Rect.mem_set_unit]
  exact Iff.rfl

/-- Row `r` of the output lies in the block of point `r / 5000`: the ten blocks of 5000 rows fill the 50000 rows. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := Gen.N_3
  obtain ⟨t, ht⟩ : ∃ t : Fin cfg3.N, t.val = (i 0).val / 5000 := ⟨⟨(i 0).val / 5000, by rw [hN]; omega⟩, rfl⟩
  obtain ⟨-, -, -, -, -, -, e30, e31⟩ := idx_facts t
  refine ⟨t, Gen.flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 128 ≤ (i 1).val ∧ (i 1).val < win3_3.index t (1 : Fin 2) * 128 + 128
    rw [e31]; omega

/-- The output array after the region's ten points is `G` of the arrays the region found. -/
theorem final (V : (c : Dev nD) → (b : Ref sig .tc) → Buf (Elt Ideal) ((c : Thread nD τ).loc b)) (c : Dev nD) :
    (Gen.dat3 (F := Ideal) V c).arrAt 3 cfg3.N
      = GcnSpec.scaleShift (N := 50000) (M := 128) (V c main_call0_v39) (V c main_call0_v15) (V c main_call0_v40) :=
  (Gen.dat3 V c).arrAt_eq_of_cover 3 (G V c) (fun t _ => flushed_eq V c t) cover

end Cert.KernelIdeal.Region3

end
-- ==== Proof.KernelValue.lean ====
/-
  The kernel program's result array, read through the run's fold of buffer contents: the host operations before the
  first region leave the edge rows and the scale column; each region leaves its dense stage of what it finds (the
  four region modules); each stretch of host operations between regions leaves the aggregation of the array before
  it and the bias as a row; every buffer a stage does not write keeps its contents.  Composed, the result array holds
  `kernelOut` of the six arguments as launched.
-/
import proofs.«163016_j82188494176916_2_alg».proof.Proof.Gen.KernelIdeal.Frame
import proofs.«163016_j82188494176916_2_alg».proof.Proof.KernelTerms
import proofs.«163016_j82188494176916_2_alg».proof.Proof.Region0
import proofs.«163016_j82188494176916_2_alg».proof.Proof.Region1
import proofs.«163016_j82188494176916_2_alg».proof.Proof.Region2
import proofs.«163016_j82188494176916_2_alg».proof.Proof.Region3
import Idealize.ShloMosaic.Lib.StableHlo.Run

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The six arguments as launched on core `c` -/

abbrev argX (c : Dev nD) : FVec Ideal S50000x128 .f32 := m ((c.tc : Thread nD τ).loc main_arg0)
abbrev argE (c : Dev nD) : IVec S2x800000 32 := m ((c.tc : Thread nD τ).loc main_arg1)
abbrev argW1 (c : Dev nD) : FVec Ideal S128x256 .f32 := m ((c.tc : Thread nD τ).loc main_arg2)
abbrev argB1 (c : Dev nD) : FVec Ideal S256 .f32 := m ((c.tc : Thread nD τ).loc main_arg3)
abbrev argW2 (c : Dev nD) : FVec Ideal S256x128 .f32 := m ((c.tc : Thread nD τ).loc main_arg4)
abbrev argB2 (c : Dev nD) : FVec Ideal S128 .f32 := m ((c.tc : Thread nD τ).loc main_arg5)

/-! ## Before the first region: the host operations leave the edge rows and the scale column, the arguments untouched -/

theorem W1_arg0 (c : Dev nD) : StableHlo.after (hostOps0 (F := Ideal)) (W0 m ρ c) (Proc.devRef .tc main_arg0) = argX m c := by
  after_results
theorem W1_arg2 (c : Dev nD) : StableHlo.after (hostOps0 (F := Ideal)) (W0 m ρ c) (Proc.devRef .tc main_arg2) = argW1 m c := by
  after_results
theorem W1_arg3 (c : Dev nD) : StableHlo.after (hostOps0 (F := Ideal)) (W0 m ρ c) (Proc.devRef .tc main_arg3) = argB1 m c := by
  after_results
theorem W1_arg4 (c : Dev nD) : StableHlo.after (hostOps0 (F := Ideal)) (W0 m ρ c) (Proc.devRef .tc main_arg4) = argW2 m c := by
  after_results
theorem W1_arg5 (c : Dev nD) : StableHlo.after (hostOps0 (F := Ideal)) (W0 m ρ c) (Proc.devRef .tc main_arg5) = argB2 m c := by
  after_results
/-- The sources, self-loops appended. -/
theorem W1_v3 (c : Dev nD) : StableHlo.after (hostOps0 (F := Ideal)) (W0 m ρ c) (Proc.devRef .tc main_call0_v3) = srcRows (argE m c) := by
  after_results
  simp only [TRef.toBuf, TRef.ofBuf, cast_eq, srcRows]
  rfl
/-- The targets, self-loops appended. -/
theorem W1_v6 (c : Dev nD) : StableHlo.after (hostOps0 (F := Ideal)) (W0 m ρ c) (Proc.devRef .tc main_call0_v6) = dstRows (argE m c) := by
  after_results
  simp only [TRef.toBuf, TRef.ofBuf, cast_eq, dstRows]
  rfl

/-- Running two stretches of host operations one after the other is running their concatenation. -/
theorem after_append' (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => simp only [List.cons_append, after_cons, ih]

/-- The first thirteen host operations leave the degree of every node. -/
theorem W1a_v10 (c : Dev nD) :
    StableHlo.after (List.take 13 (hostOps0 (F := Ideal))) (W0 m ρ c) (Proc.devRef .tc main_call0_v10) = degree (argE m c) := by
  simp only [hostOps0, List.take_succ_cons, List.take_zero]
  after_results
  simp only [TRef.toBuf, TRef.ofBuf, cast_eq, degree, zeroNodes, asCol, dstRows]
  rfl

/-- The last nine, from any contents `U`: the scale column of whatever degree `U` holds. -/
theorem scale_of_degree (U : Valuation τ sig (Elt Ideal)) (d : FVec Ideal S50000 .f32)
    (hd : U (Proc.devRef .tc main_call0_v10) = d) :
    StableHlo.after (List.drop 13 (hostOps0 (F := Ideal))) U (Proc.devRef .tc main_call0_v15)
      = shapeCast S50000x1 (select (cmpf (F := Ideal) .ogt d zeroNodes) (Host.rsqrt (F := Ideal) d) zeroNodes) shapeCasts_S50000_S50000x1 := by
  simp only [hostOps0, List.drop_succ_cons, List.drop_zero]
  after_results
  rw [hd]
  simp only [TRef.toBuf, TRef.ofBuf, cast_eq, zeroNodes, id_eq]
  rfl

/-- The scale column. -/
theorem W1_v15 (c : Dev nD) : StableHlo.after (hostOps0 (F := Ideal)) (W0 m ρ c) (Proc.devRef .tc main_call0_v15) = dinvCol (argE m c) := by
  rw [← List.take_append_drop 13 (hostOps0 (F := Ideal)), after_append']
  unfold dinvCol dinv
  exact scale_of_degree _ (degree (argE m c)) (W1a_v10 m ρ c)

/-! ## Region 0: the dense transform of the first layer -/

theorem W2_v3 (c : Dev nD) : W2 (F := Ideal) m ρ c (Proc.devRef .tc main_call0_v3) = srcRows (argE m c) :=
  (W2_of_ne m ρ c main_call0_v3 (by decide)).trans (W1_v3 m ρ c)
theorem W2_v6 (c : Dev nD) : W2 (F := Ideal) m ρ c (Proc.devRef .tc main_call0_v6) = dstRows (argE m c) :=
  (W2_of_ne m ρ c main_call0_v6 (by decide)).trans (W1_v6 m ρ c)
theorem W2_arg3 (c : Dev nD) : W2 (F := Ideal) m ρ c (Proc.devRef .tc main_arg3) = argB1 m c :=
  (W2_of_ne m ρ c main_arg3 (by decide)).trans (W1_arg3 m ρ c)
theorem W2_arg4 (c : Dev nD) : W2 (F := Ideal) m ρ c (Proc.devRef .tc main_arg4) = argW2 m c :=
  (W2_of_ne m ρ c main_arg4 (by decide)).trans (W1_arg4 m ρ c)
theorem W2_arg5 (c : Dev nD) : W2 (F := Ideal) m ρ c (Proc.devRef .tc main_arg5) = argB2 m c :=
  (W2_of_ne m ρ c main_arg5 (by decide)).trans (W1_arg5 m ρ c)
/-- The scale column is an input window's array: the region leaves it as it found it. -/
theorem W2_v15 (c : Dev nD) : W2 (F := Ideal) m ρ c (Proc.devRef .tc main_call0_v15) = dinvCol (argE m c) :=
  ((W2_arr m ρ c 2).trans (((dat0 (V1 m ρ) c).arrAt_in 2 rfl _).trans (A_eq0 (V1 m ρ) c 2))).trans (W1_v15 m ρ c)
/-- The region's output: the features times the first weights, rows scaled. -/
theorem W2_v16 (c : Dev nD) : W2 (F := Ideal) m ρ c (Proc.devRef .tc main_call0_v16)
    = GcnSpec.scaledProduct (N := 50000) (K := 128) (M := 256) (argX m c) (argW1 m c) (dinvCol (argE m c)) := by
  refine ((W2_arr m ρ c 3).trans (Cert.KernelIdeal.Region0.final (V1 m ρ) c)).trans ?_
  rw [show V1 (F := Ideal) m ρ c main_arg0 = argX m c from W1_arg0 m ρ c, show V1 (F := Ideal) m ρ c main_arg2 = argW1 m c from W1_arg2 m ρ c,
    show V1 (F := Ideal) m ρ c main_call0_v15 = dinvCol (argE m c) from W1_v15 m ρ c]

/-! ## Between regions 0 and 1: the first aggregation, and the first bias as a row -/

theorem W3_v3 (c : Dev nD) : StableHlo.after (hostOps1 (F := Ideal)) (W2 m ρ c) (Proc.devRef .tc main_call0_v3) = srcRows (argE m c) := by
  refine Eq.trans ?_ (W2_v3 m ρ c)
  after_results
theorem W3_v6 (c : Dev nD) : StableHlo.after (hostOps1 (F := Ideal)) (W2 m ρ c) (Proc.devRef .tc main_call0_v6) = dstRows (argE m c) := by
  refine Eq.trans ?_ (W2_v6 m ρ c)
  after_results
theorem W3_v15 (c : Dev nD) : StableHlo.after (hostOps1 (F := Ideal)) (W2 m ρ c) (Proc.devRef .tc main_call0_v15) = dinvCol (argE m c) := by
  refine Eq.trans ?_ (W2_v15 m ρ c)
  after_results
theorem W3_arg4 (c : Dev nD) : StableHlo.after (hostOps1 (F := Ideal)) (W2 m ρ c) (Proc.devRef .tc main_arg4) = argW2 m c := by
  refine Eq.trans ?_ (W2_arg4 m ρ c)
  after_results
theorem W3_arg5 (c : Dev nD) : StableHlo.after (hostOps1 (F := Ideal)) (W2 m ρ c) (Proc.devRef .tc main_arg5) = argB2 m c := by
  refine Eq.trans ?_ (W2_arg5 m ρ c)
  after_results
/-- The aggregation of the first dense stage. -/
theorem W3_v26 (c : Dev nD) : StableHlo.after (hostOps1 (F := Ideal)) (W2 m ρ c) (Proc.devRef .tc main_call0_v26)
    = aggregate1 (GcnSpec.scaledProduct (N := 50000) (K := 128) (M := 256) (argX m c) (argW1 m c) (dinvCol (argE m c))) (argE m c) := by
  after_results
  simp only [TRef.toBuf, TRef.ofBuf, cast_eq]
  rw [W2_v6 m ρ c, W2_v16 m ρ c, W2_v3 m ρ c]
  simp only [aggregate1, wrapCol, asCol]
/-- The first bias as a row. -/
theorem W3_v27 (c : Dev nD) : StableHlo.after (hostOps1 (F := Ideal)) (W2 m ρ c) (Proc.devRef .tc main_call0_v27)
    = shapeCast S1x256 (argB1 m c) shapeCasts_S256_S1x256 := by
  after_results
  simp only [TRef.toBuf, TRef.ofBuf, cast_eq]
  rw [W2_arg3 m ρ c]
  rfl

/-! ## Region 1: scale, shift, rectify -/

theorem W4_v3 (c : Dev nD) : W4 (F := Ideal) m ρ c (Proc.devRef .tc main_call0_v3) = srcRows (argE m c) :=
  (W4_of_ne m ρ c main_call0_v3 (by decide)).trans (W3_v3 m ρ c)
theorem W4_v6 (c : Dev nD) : W4 (F := Ideal) m ρ c (Proc.devRef .tc main_call0_v6) = dstRows (argE m c) :=
  (W4_of_ne m ρ c main_call0_v6 (by decide)).trans (W3_v6 m ρ c)
theorem W4_arg4 (c : Dev nD) : W4 (F := Ideal) m ρ c (Proc.devRef .tc main_arg4) = argW2 m c :=
  (W4_of_ne m ρ c main_arg4 (by decide)).trans (W3_arg4 m ρ c)
theorem W4_arg5 (c : Dev nD) : W4 (F := Ideal) m ρ c (Proc.devRef .tc main_arg5) = argB2 m c :=
  (W4_of_ne m ρ c main_arg5 (by decide)).trans (W3_arg5 m ρ c)
theorem W4_v15 (c : Dev nD) : W4 (F := Ideal) m ρ c (Proc.devRef .tc main_call0_v15) = dinvCol (argE m c) :=
  ((W4_arr m ρ c 1).trans (((dat1 (V3 m ρ) c).arrAt_in 1 rfl _).trans (A_eq1 (V3 m ρ) c 1))).trans (W3_v15 m ρ c)
/-- The region's output: the first layer. -/
theorem W4_v28 (c : Dev nD) : W4 (F := Ideal) m ρ c (Proc.devRef .tc main_call0_v28) = layer1 (argX m c) (argE m c) (argW1 m c) (argB1 m c) := by
  refine ((W4_arr m ρ c 3).trans (Cert.KernelIdeal.Region1.final (V3 m ρ) c)).trans ?_
  rw [show V3 (F := Ideal) m ρ c main_call0_v26 = _ from W3_v26 m ρ c, show V3 (F := Ideal) m ρ c main_call0_v15 = _ from W3_v15 m ρ c,
    show V3 (F := Ideal) m ρ c main_call0_v27 = _ from W3_v27 m ρ c]
  unfold layer1
  rfl

/-! ## Region 2: the dense transform of the second layer (no host operation before it) -/

theorem W5_v3 (c : Dev nD) : W5 (F := Ideal) m ρ c (Proc.devRef .tc main_call0_v3) = srcRows (argE m c) :=
  (W5_of_ne m ρ c main_call0_v3 (by decide)).trans (W4_v3 m ρ c)
theorem W5_v6 (c : Dev nD) : W5 (F := Ideal) m ρ c (Proc.devRef .tc main_call0_v6) = dstRows (argE m c) :=
  (W5_of_ne m ρ c main_call0_v6 (by decide)).trans (W4_v6 m ρ c)
theorem W5_arg5 (c : Dev nD) : W5 (F := Ideal) m ρ c (Proc.devRef .tc main_arg5) = argB2 m c :=
  (W5_of_ne m ρ c main_arg5 (by decide)).trans (W4_arg5 m ρ c)
theorem W5_v15 (c : Dev nD) : W5 (F := Ideal) m ρ c (Proc.devRef .tc main_call0_v15) = dinvCol (argE m c) :=
  ((W5_arr m ρ c 2).trans (((dat2 (V4 m ρ) c).arrAt_in 2 rfl _).trans (A_eq2 (V4 m ρ) c 2))).trans (W4_v15 m ρ c)
/-- The region's output: the first layer times the second weights, rows scaled. -/
theorem W5_v29 (c : Dev nD) : W5 (F := Ideal) m ρ c (Proc.devRef .tc main_call0_v29)
    = GcnSpec.scaledProduct (N := 50000) (K := 256) (M := 128) (layer1 (argX m c) (argE m c) (argW1 m c) (argB1 m c)) (argW2 m c) (dinvCol (argE m c)) := by
  refine ((W5_arr m ρ c 3).trans (Cert.KernelIdeal.Region2.final (V4 m ρ) c)).trans ?_
  rw [show V4 (F := Ideal) m ρ c main_call0_v28 = _ from W4_v28 m ρ c, show V4 (F := Ideal) m ρ c main_arg4 = _ from W4_arg4 m ρ c,
    show V4 (F := Ideal) m ρ c main_call0_v15 = _ from W4_v15 m ρ c]

/-! ## Between regions 2 and 3: the second aggregation, and the second bias as a row -/

theorem W6_v15 (c : Dev nD) : StableHlo.after (hostOps3 (F := Ideal)) (W5 m ρ c) (Proc.devRef .tc main_call0_v15) = dinvCol (argE m c) := by
  refine Eq.trans ?_ (W5_v15 m ρ c)
  after_results
/-- The aggregation of the second dense stage. -/
theorem W6_v39 (c : Dev nD) : StableHlo.after (hostOps3 (F := Ideal)) (W5 m ρ c) (Proc.devRef .tc main_call0_v39)
    = aggregate2 (GcnSpec.scaledProduct (N := 50000) (K := 256) (M := 128) (layer1 (argX m c) (argE m c) (argW1 m c) (argB1 m c)) (argW2 m c) (dinvCol (argE m c))) (argE m c) := by
  after_results
  simp only [TRef.toBuf, TRef.ofBuf, cast_eq]
  rw [W5_v6 m ρ c, W5_v29 m ρ c, W5_v3 m ρ c]
  simp only [aggregate2, wrapCol, asCol]
/-- The second bias as a row. -/
theorem W6_v40 (c : Dev nD) : StableHlo.after (hostOps3 (F := Ideal)) (W5 m ρ c) (Proc.devRef .tc main_call0_v40)
    = shapeCast S1x128 (argB2 m c) shapeCasts_S128_S1x128 := by
  after_results
  simp only [TRef.toBuf, TRef.ofBuf, cast_eq]
  rw [W5_arg5 m ρ c]
  rfl

/-! ## Region 3: scale and shift — the result -/

/-- The result array holds the two layers composed. -/
theorem W7_v0 (c : Dev nD) : W7 (F := Ideal) m ρ c (Proc.devRef .tc main_v0)
    = kernelOut (argX m c) (argE m c) (argW1 m c) (argB1 m c) (argW2 m c) (argB2 m c) := by
  refine ((W7_arr m ρ c 3).trans (Cert.KernelIdeal.Region3.final (V6 m ρ) c)).trans ?_
  rw [show V6 (F := Ideal) m ρ c main_call0_v39 = _ from W6_v39 m ρ c, show V6 (F := Ideal) m ρ c main_call0_v15 = _ from W6_v15 m ρ c,
    show V6 (F := Ideal) m ρ c main_call0_v40 = _ from W6_v40 m ρ c]
  unfold kernelOut layer2
  rfl

/-- THE RESULT: after the run's last region the result array holds `kernelOut` of the six arguments as launched. -/
theorem result_eq (m : (ℓ : Loc nD τ sig) → Buf (Elt Ideal) ℓ) (ρ : Dev nD → PrngReg) (c : Dev nD) :
    Gen.W7 (F := Ideal) m ρ c (Proc.devRef .tc main_v0)
      = kernelOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  W7_v0 m ρ c

end Cert.KernelIdeal.Val

end
-- ==== Proof.IndexOps.lean ====
/-
  Three index computations of the host's gather and scatter, for the dimension numbers a row lookup `x[idx]` and a
  row accumulation `zeros.at[idx].add(u)` lower to, over literal extents:

  * the row gather of a matrix `[N, F]` at a column of start indices `[E, 1]`: entry `(e, f)` of the result is the
    matrix at row `clamp(idx[e, 0])`, column `f`, where `clamp` reads the index signed, sends the negatives to `0`
    and caps at `N − 1`;
  * the gather of a vector `[N]` at the same column of start indices: entry `e` is the vector at `clamp(idx[e, 0])`;
  * the row scatter into `[N, F]` of updates `[E, F]` at a column of indices `[E, 1]`: update `(e, f)` lands on entry
    `(n, g)` only if `idx[e, 0]`, read signed and NOT clamped, is `n`.
-/
import Idealize.ShloMosaic.PureOps.Ideal
import Idealize.ShloMosaic.Lib.ValueIdx

noncomputable section

namespace GcnSpec

open Idealize.ShloMosaic Idealize.ShloMosaic.ValueIdx

/-- A start index read signed, negatives sent to `0`, capped at `N − 1`: the row a gather reads. -/
def clampRow (N : Nat) (hN : 0 < N) {w : Nat} (v : BitVec w) : Fin N := ⟨min v.toInt.toNat (N - 1), by omega⟩

section RowGather
variable {α : Type}

/-- The dimension numbers of a row lookup: operand `[N, F]`, start indices `[E, 1]`, result `[E, F]`. -/
abbrev rowGatherDims (N F E : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row lookup read at `(e, f)`: the operand at row `clamp(idx[e, 0])`, column `f`. -/
theorem rowGather_apply {N F E w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N F E wf) x idx (ix2 e f) = x (ix2 (clampRow N hN (idx (ix2 e (0 : Fin 1)))) f) := by
  unfold Host.gather
  congr 1
  funext a
  refine Fin.ext ?_
  match a with
  | ⟨0, _⟩ =>
    show (rowGatherDims N F E wf).start (ix2 e f) idx 0 + (rowGatherDims N F E wf).batchCoord (ix2 e f) 0
      + (rowGatherDims N F E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N F E wf).startIndexMap from List.mem_singleton.mpr rfl)]
    have hsi : (rowGatherDims N F E wf).siIdx (ix2 e f) ⟨List.idxOf (0 : Fin 2) (rowGatherDims N F E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N F E wf).start (ix2 e f) idx 1 + (rowGatherDims N F E wf).batchCoord (ix2 e f) 1
      + (rowGatherDims N F E wf).offCoord (ix2 e f) 1 = f.val
    rw [GatherDims.batchCoord_eq_zero _ _ _ List.not_mem_nil]
    unfold GatherDims.start
    rw [dif_neg (show (1 : Fin 2) ∉ (rowGatherDims N F E wf).startIndexMap from (by decide : (1 : Fin 2) ∉ [(0 : Fin 2)]))]
    simp only [Nat.add_zero, Nat.zero_add]
    unfold GatherDims.offCoord
    rw [dif_pos ((GatherDims.mem_sKept (rowGatherDims N F E wf) 1).mpr ⟨(by decide : (1 : Fin 2) ∉ [(0 : Fin 2)]), List.not_mem_nil⟩)]
    rfl

end RowGather

end GcnSpec

end
-- ==== Proof.IndexOpsB.lean ====
/-
  Further index computations for the host's gather and scatter and for the per-node scale:

  * the gather of a vector `[N]` at a column of start indices `[E, 1]`: entry `e` is the vector at `clamp(idx[e, 0])`;
  * the row scatter into `[N, F]` of updates `[E, F]` at a column of indices `[E, 1]`: update `(e, f)` lands on entry
    `(n, g)` only if `idx[e, 0]`, read signed and not clamped, is `n`;
  * an index that reads as a natural number is left alone by the wrap of negative indices, and its clamp is itself;
  * the per-node scale (the inverse square root where the degree is positive, zero elsewhere) is non-negative and
    never `+∞`.
-/
import Idealize.ShloMosaic.PureOps.Ideal
import Idealize.ShloMosaic.Lib.ValueIdx
import Mathlib
import proofs.«163016_j82188494176916_2_alg».proof.Proof.IndexOps

noncomputable section

namespace GcnSpec

open Idealize.ShloMosaic Idealize.ShloMosaic.ValueIdx

section VecGather
variable {α : Type}

/-- The dimension numbers of a vector lookup: operand `[N]`, start indices `[E, 1]`, result `[E]`. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector lookup read at `e`: the operand at `clamp(idx[e, 0])`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

section RowScatter

/-- The dimension numbers of a row accumulation: operand `[N, F]`, indices `[E, 1]`, updates `[E, F]`. -/
abbrev rowScatterDims (N F E : Nat) (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The scatter-indices entry update `(e, f)` reads its row from: `(e, 0)`. -/
theorem rowScatter_siIdx {N F E : Nat} (wf : ScatterDims.WF ⟨2, ![N, F]⟩ ⟨2, ![E, 1]⟩ ⟨2, ![E, F]⟩ [1] [0] [0] 1)
    (e : Fin E) (f : Fin F) :
    (rowScatterDims N F E wf).siIdx (ix2 e f) ⟨List.idxOf (0 : Fin 2) (rowScatterDims N F E wf).scatterDimsToOperandDims,
        List.idxOf_lt_length_iff.2 (List.mem_singleton.mpr rfl)⟩ = ix2 e (0 : Fin 1) := by
  funext b; refine Fin.ext ?_
  match b with
  | ⟨0, _⟩ => rfl
  | ⟨1, _⟩ => rfl

/-- On the row axis the window starts at the index read signed, and the window coordinate is `0`: the row axis is an
    inserted axis. -/
theorem rowScatter_row {N F E w : Nat} (wf : ScatterDims.WF ⟨2, ![N, F]⟩ ⟨2, ![E, 1]⟩ ⟨2, ![E, F]⟩ [1] [0] [0] 1)
    (idx : IVec ⟨2, ![E, 1]⟩ w) (e : Fin E) (f : Fin F) :
    (rowScatterDims N F E wf).start (ix2 e f) idx 0 + ((rowScatterDims N F E wf).window (ix2 e f) 0 : Nat)
      = (idx (ix2 e (0 : Fin 1))).toInt := by
  have hnk : (0 : Fin 2) ∉ (rowScatterDims N F E wf).sKept := fun hmem =>
    (of_decide_eq_true (List.mem_filter.mp hmem).2) (List.mem_singleton.mpr rfl)
  unfold ScatterDims.window
  rw [dif_neg hnk]
  unfold ScatterDims.start
  rw [dif_pos (show (0 : Fin 2) ∈ (rowScatterDims N F E wf).scatterDimsToOperandDims from List.mem_singleton.mpr rfl),
    rowScatter_siIdx wf e f]
  simp

/-- Update `(e, f)` lands on row `n` only if `idx[e, 0]`, read signed, is `n`. -/
theorem rowScatter_lands {N F E w : Nat} (wf : ScatterDims.WF ⟨2, ![N, F]⟩ ⟨2, ![E, 1]⟩ ⟨2, ![E, F]⟩ [1] [0] [0] 1)
    (idx : IVec ⟨2, ![E, 1]⟩ w) (e : Fin E) (f : Fin F) (i : (⟨2, ![N, F]⟩ : Shape).Idx)
    (h : (rowScatterDims N F E wf).resultIdx? (ix2 e f) idx = some i) :
    (idx (ix2 e (0 : Fin 1))).toInt = (((i 0).val : Nat) : Int) := by
  unfold ScatterDims.resultIdx? at h
  split at h
  · rename_i hb
    have hi := Option.some.inj h
    have h0 := (hb 0).1
    rw [← hi]
    show _ = ((((rowScatterDims N F E wf).start (ix2 e f) idx 0 + ((rowScatterDims N F E wf).window (ix2 e f) 0 : Nat)).toNat : Nat) : Int)
    rw [rowScatter_row wf idx e f] at h0 ⊢
    exact (Int.toNat_of_nonneg h0).symm
  · exact absurd h (by simp)

end RowScatter

section RowScatterCol

/-- On the column axis the window starts at `0` and the window coordinate is the update's column. -/
theorem rowScatter_col {N F E w : Nat} (wf : ScatterDims.WF ⟨2, ![N, F]⟩ ⟨2, ![E, 1]⟩ ⟨2, ![E, F]⟩ [1] [0] [0] 1)
    (idx : IVec ⟨2, ![E, 1]⟩ w) (e : Fin E) (f : Fin F) :
    (rowScatterDims N F E wf).start (ix2 e f) idx 1 + ((rowScatterDims N F E wf).window (ix2 e f) 1 : Nat)
      = (f.val : Int) := by
  have hk : (1 : Fin 2) ∈ (rowScatterDims N F E wf).sKept :=
    List.mem_filter.mpr ⟨List.mem_finRange _, decide_eq_true (by decide : (1 : Fin 2) ∉ [(0 : Fin 2)])⟩
  unfold ScatterDims.window
  rw [dif_pos hk]
  unfold ScatterDims.start
  rw [dif_neg (show (1 : Fin 2) ∉ (rowScatterDims N F E wf).scatterDimsToOperandDims from (by decide : (1 : Fin 2) ∉ [(0 : Fin 2)]))]
  rw [Int.zero_add]
  rfl

/-- Update `(e, f)` lands on column `f`. -/
theorem rowScatter_lands_col {N F E w : Nat} (wf : ScatterDims.WF ⟨2, ![N, F]⟩ ⟨2, ![E, 1]⟩ ⟨2, ![E, F]⟩ [1] [0] [0] 1)
    (idx : IVec ⟨2, ![E, 1]⟩ w) (e : Fin E) (f : Fin F) (i : (⟨2, ![N, F]⟩ : Shape).Idx)
    (h : (rowScatterDims N F E wf).resultIdx? (ix2 e f) idx = some i) : (i 1).val = f.val := by
  unfold ScatterDims.resultIdx? at h
  split at h
  · have hi := Option.some.inj h
    rw [← hi]
    show ((rowScatterDims N F E wf).start (ix2 e f) idx 1 + ((rowScatterDims N F E wf).window (ix2 e f) 1 : Nat)).toNat = f.val
    rw [rowScatter_col wf idx e f, Int.toNat_natCast]
  · exact absurd h (by simp)

end RowScatterCol

section Wrap

/-- An index that reads as a natural number is not negative, so the wrap of negative indices leaves it alone. -/
theorem wrap_of_nonneg (v : BitVec 32) (n : Nat) (hv : v.toInt = (n : Int)) :
    Scalar.select (IntOp.cmpi .slt v 0#32) (IntOp.addi v 50000#32) v = v := by
  have hs : v.slt 0#32 = false := by
    unfold BitVec.slt
    rw [hv]
    simp
  show Scalar.select (BitVec.ofBool (v.slt 0#32)) _ _ = _
  rw [hs]
  exact select_zero _ _

/-- The clamp of an index that reads as a natural number below `N` is that number. -/
theorem clampRow_of_toInt (N : Nat) (hN : 0 < N) (v : BitVec 32) (n : Nat) (hn : n < N) (hv : v.toInt = (n : Int)) :
    clampRow N hN v = ⟨n, hn⟩ := by
  refine Fin.ext ?_
  show min v.toInt.toNat (N - 1) = n
  rw [hv, Int.toNat_natCast]
  omega

end Wrap

section Scale

/-- The single-precision word of all zero bits is the extended real `0`. -/
theorem ofBits_zero_word : Ideal.ofBits .f32 0x00000000#32 = 0 := by simp [Ideal.ofBits, Ideal.ieee]

/-- The inverse square root of a positive extended real is non-negative and not `+∞`: of `+∞` it is `0`, of a positive
    real the inverse of its root. -/
theorem rsqrt_bounds_of_pos (y : EReal) (hy : 0 < y) : 0 ≤ Ideal.rsqrt y ∧ Ideal.rsqrt y ≠ ⊤ := by
  induction y using EReal.rec with
  | bot => exact absurd hy (by simp)
  | top => exact ⟨le_of_eq Ideal.rsqrt_top.symm, by rw [Ideal.rsqrt_top]; exact EReal.zero_ne_top⟩
  | coe r =>
    have hr : 0 < r := by exact_mod_cast hy
    have e : Ideal.rsqrt (r : EReal) = (((Real.sqrt r)⁻¹ : ℝ) : EReal) := by
      rw [Ideal.rsqrt_coe, if_neg (not_lt.mpr hr.le), if_neg hr.ne']
    rw [e]
    exact ⟨EReal.coe_nonneg.mpr (inv_nonneg.mpr (Real.sqrt_nonneg r)), EReal.coe_ne_top _⟩

/-- The per-node scale of a degree `y`: its inverse square root where `y` is positive, zero elsewhere. -/
def scaleAt (y : EReal) : EReal :=
  Scalar.select (FloatOps.cmpf (F := Ideal) (φ := .f32) .ogt y (Ideal.ofBits .f32 0x00000000#32))
    (FloatOps.hostUnary (F := Ideal) (φ := .f32) .rsqrt y) (Ideal.ofBits .f32 0x00000000#32)

/-- The scale is non-negative and never `+∞`. -/
theorem scaleAt_bounds (y : EReal) : 0 ≤ scaleAt y ∧ scaleAt y ≠ ⊤ := by
  unfold scaleAt
  rw [ofBits_zero_word]
  show 0 ≤ Scalar.select (BitVec.ofBool (decide ((0 : EReal) < y))) (Ideal.rsqrt y) 0
    ∧ Scalar.select (BitVec.ofBool (decide ((0 : EReal) < y))) (Ideal.rsqrt y) 0 ≠ ⊤
  by_cases hy : (0 : EReal) < y
  · rw [decide_eq_true hy]
    show 0 ≤ Scalar.select 1#1 (Ideal.rsqrt y) 0 ∧ Scalar.select 1#1 (Ideal.rsqrt y) 0 ≠ ⊤
    rw [select_one]
    exact rsqrt_bounds_of_pos y hy
  · rw [decide_eq_false hy]
    show 0 ≤ Scalar.select 0#1 (Ideal.rsqrt y) 0 ∧ Scalar.select 0#1 (Ideal.rsqrt y) 0 ≠ ⊤
    rw [select_zero]
    exact ⟨le_refl _, EReal.zero_ne_top⟩

/-- The same for the three vector operations of the host program read at an index: the comparison with the zero
    splat, the inverse square root and the select between it and the zero splat. -/
theorem scale_bounds {S : Shape} (x : FVec Ideal S .f32) (i : S.Idx) :
    0 ≤ select (cmpf .ogt x (fun _ => Ideal.ofBits .f32 0x00000000#32)) (Host.rsqrt x) (fun _ => Ideal.ofBits .f32 0x00000000#32) i
    ∧ select (cmpf .ogt x (fun _ => Ideal.ofBits .f32 0x00000000#32)) (Host.rsqrt x) (fun _ => Ideal.ofBits .f32 0x00000000#32) i ≠ ⊤ :=
  scaleAt_bounds (x i)

end Scale

end GcnSpec

end
-- ==== Proof.Aggregate.lean ====
/-
  One layer's aggregation, the two ways.  With `mm` the dense product, `dinv` the per-node scale (every entry
  non-negative and not `+∞`), `s e` the clamped source row of edge `e` and the edges that land on node `n` those whose
  target index, read signed, is `n`:

      ((Σ_{e lands on n} mm[s e, g] · dinv[s e]) · dinv[n]) + b[g]  =  (Σ_{e lands on n} mm[s e, g] · (dinv[s e] · dinv[t e])) + b[g]

  because for an edge that lands on `n` the clamped target row `t e` is `n` itself, and a non-negative finite factor
  distributes over the sum (GcnSpec.aggregate_scale_eq).  Stated over the host's accumulating row scatter of a row
  gather, at the dimension numbers of IndexOps, for any extents.
-/
import proofs.«163016_j82188494176916_2_alg».proof.Proof.Spec
import proofs.«163016_j82188494176916_2_alg».proof.Proof.IndexOps
import proofs.«163016_j82188494176916_2_alg».proof.Proof.IndexOpsB

noncomputable section

open scoped BigOperators

namespace GcnSpec

open Idealize.ShloMosaic Idealize.ShloMosaic.ValueIdx

theorem exists_ix2 {n0 n1 : Nat} (j : (⟨2, ![n0, n1]⟩ : Shape).Idx) : ∃ (a : Fin n0) (b : Fin n1), j = ix2 a b :=
  ⟨j 0, j 1, eq_ix2 j⟩

/-- The kernel form of a layer (pre-scaled rows gathered and accumulated, then post-scaled and shifted) is the
    reference form (rows gathered, scaled per edge by both factors, accumulated, shifted). -/
theorem aggregate_eq {N M E : Nat} (hN : 0 < N)
    (wfG : GatherDims.WF ⟨2, ![N, M]⟩ ⟨2, ![E, 1]⟩ ⟨2, ![E, M]⟩ [1] [0] [] [0] [] 1 ![1, M])
    (wfV : GatherDims.WF ⟨1, ![N]⟩ ⟨2, ![E, 1]⟩ ⟨1, ![E]⟩ [] [0] [] [0] [] 1 ![1])
    (wfS : ScatterDims.WF ⟨2, ![N, M]⟩ ⟨2, ![E, 1]⟩ ⟨2, ![E, M]⟩ [1] [0] [0] 1)
    (mm : (⟨2, ![N, M]⟩ : Shape).Idx → EReal) (dinv : (⟨1, ![N]⟩ : Shape).Idx → EReal)
    (hd : ∀ r, 0 ≤ dinv r ∧ dinv r ≠ ⊤)
    (dcol : (⟨2, ![N, 1]⟩ : Shape).Idx → EReal) (hdcol : ∀ r : Fin N, dcol (ix2 r (0 : Fin 1)) = dinv (ix1 r))
    (srcW dstW dstC : IVec ⟨2, ![E, 1]⟩ 32)
    (hdst : ∀ (e : Fin E) (n : Fin N), (dstC (ix2 e (0 : Fin 1))).toInt = ((n.val : Nat) : Int) →
      clampRow N hN (dstW (ix2 e (0 : Fin 1))) = n)
    (hs : (⟨2, ![N, M]⟩ : Shape).Idx → EReal) (hhs : ∀ (r : Fin N) (f : Fin M), hs (ix2 r f) = mm (ix2 r f) * dcol (ix2 r (0 : Fin 1)))
    (norm2 : (⟨2, ![E, M]⟩ : Shape).Idx → EReal)
    (hnorm : ∀ (e : Fin E) (f : Fin M), norm2 (ix2 e f)
      = Host.gather (vecGatherDims N E wfV) dinv srcW (ix1 e) * Host.gather (vecGatherDims N E wfV) dinv dstW (ix1 e))
    (brow : (⟨2, ![1, M]⟩ : Shape).Idx → EReal) (bfull : (⟨2, ![N, M]⟩ : Shape).Idx → EReal)
    (hb : ∀ (n : Fin N) (g : Fin M), bfull (ix2 n g) = brow (ix2 (0 : Fin 1) g))
    (zero : (⟨2, ![N, M]⟩ : Shape).Idx → EReal) (hz : ∀ i, zero i = 0) :
    GcnSpec.scaleShift (Host.scatterAdd (F := Ideal) (φ := .f32) (rowScatterDims N M E wfS) zero dstC
        (Host.gather (rowGatherDims N M E wfG) hs srcW)) dcol brow
      = addf (F := Ideal) (φ := .f32) (Host.scatterAdd (F := Ideal) (φ := .f32) (rowScatterDims N M E wfS) zero dstC
          (mulf (F := Ideal) (φ := .f32) (Host.gather (rowGatherDims N M E wfG) mm srcW) norm2)) bfull := by
  show GcnSpec.scaleShift (Ideal.hostScatterAdd (rowScatterDims N M E wfS) zero dstC
        (Host.gather (rowGatherDims N M E wfG) hs srcW)) dcol brow
      = fun i => Ideal.hostScatterAdd (rowScatterDims N M E wfS) zero dstC
          (fun j => Host.gather (rowGatherDims N M E wfG) mm srcW j * norm2 j) i + bfull i
  funext i
  obtain ⟨n, g, rfl⟩ := exists_ix2 i
  unfold GcnSpec.scaleShift
  show Ideal.hostScatterAdd (rowScatterDims N M E wfS) zero dstC (Host.gather (rowGatherDims N M E wfG) hs srcW) (ix2 n g)
      * dcol (ix2 n (0 : Fin 1)) + brow (ix2 (0 : Fin 1) g) = _
  rw [hb n g, hdcol n]
  unfold Ideal.hostScatterAdd
  rw [hz (ix2 n g)]
  -- the three factors of a summand, as functions of the update index
  let a : (⟨2, ![E, M]⟩ : Shape).Idx → EReal := fun j => Host.gather (rowGatherDims N M E wfG) mm srcW j
  let s : (⟨2, ![E, M]⟩ : Shape).Idx → EReal := fun j =>
    dinv (ix1 (clampRow N hN (srcW (ix2 (⟨(j 0).val, idx2_lt0 j⟩ : Fin E) (0 : Fin 1)))))
  let t : (⟨2, ![E, M]⟩ : Shape).Idx → EReal := fun j =>
    dinv (ix1 (clampRow N hN (dstW (ix2 (⟨(j 0).val, idx2_lt0 j⟩ : Fin E) (0 : Fin 1)))))
  have hL : ∀ j, Host.gather (rowGatherDims N M E wfG) hs srcW j = a j * s j := by
    intro j
    obtain ⟨e, f, rfl⟩ := exists_ix2 j
    show Host.gather (rowGatherDims N M E wfG) hs srcW (ix2 e f) = Host.gather (rowGatherDims N M E wfG) mm srcW (ix2 e f)
      * dinv (ix1 (clampRow N hN (srcW (ix2 e (0 : Fin 1)))))
    rw [rowGather_apply hN wfG hs srcW e f, rowGather_apply hN wfG mm srcW e f, hhs, hdcol]
  have hR : ∀ j, Host.gather (rowGatherDims N M E wfG) mm srcW j * norm2 j = a j * (s j * t j) := by
    intro j
    obtain ⟨e, f, rfl⟩ := exists_ix2 j
    show Host.gather (rowGatherDims N M E wfG) mm srcW (ix2 e f) * norm2 (ix2 e f) = Host.gather (rowGatherDims N M E wfG) mm srcW (ix2 e f)
      * (dinv (ix1 (clampRow N hN (srcW (ix2 e (0 : Fin 1))))) * dinv (ix1 (clampRow N hN (dstW (ix2 e (0 : Fin 1))))))
    rw [hnorm e f, vecGather_apply hN wfV dinv srcW e, vecGather_apply hN wfV dinv dstW e]
  rw [Finset.sum_congr rfl (fun j _ => hL j), Finset.sum_congr rfl (fun j _ => hR j)]
  refine aggregate_scale_eq _ a s t (hd (ix1 n)).1 (hd (ix1 n)).2 (fun j hj => ?_) _
  obtain ⟨e, f, rfl⟩ := exists_ix2 j
  have hl := rowScatter_lands wfS dstC e f (ix2 n g) (Finset.mem_filter.mp hj).2
  show dinv (ix1 (clampRow N hN (dstW (ix2 e (0 : Fin 1))))) = dinv (ix1 n)
  rw [hdst e n hl]

end GcnSpec

end
-- ==== Proof.KernelReads.lean ====
/-
  Two of the kernel program's host-side values read at an index: the per-node scale as a column `[50000, 1]`, and a
  bias vector as a row `[1, M]`.  Both are shape casts that move no entry: the row-major position of `(r, 0)` in a
  column is `r`, and that of `(0, g)` in a row is `g`.
-/
import proofs.«163016_j82188494176916_2_alg».proof.Proof.KernelTerms
import Idealize.ShloMosaic.Lib.Pipeline.Value
import Idealize.ShloMosaic.Lib.ValueIdx

noncomputable section

namespace Cert.KernelIdeal.Val

open Idealize.ShloMosaic Idealize.ShloMosaic.ValueIdx Cert.KernelIdeal Cert.KernelIdeal.Gen

/-- The scale column reads, at `(r, 0)`, the scale of node `r`. -/
theorem dinvCol_apply (ei : IVec S2x800000 32) (r : Fin 50000) : dinvCol ei (ix2 r (0 : Fin 1)) = dinv ei (ix1 r) := by
  unfold dinvCol
  refine shapeCast_apply (dinv ei) shapeCasts_S50000_S50000x1 (ix2 r (0 : Fin 1)) (ix1 r) ?_
  rw [Shape.rowMajor_val_two, Shape.rowMajor_val_one]
  show r.val = r.val * 1 + 0
  rw [Nat.mul_one, Nat.add_zero]

/-- A bias vector of 256 entries as a row reads, at `(0, g)`, entry `g`. -/
theorem biasRow256_apply (b : FVec Ideal S256 .f32) (g : Fin 256) :
    shapeCast S1x256 b shapeCasts_S256_S1x256 (ix2 (0 : Fin 1) g) = b (ix1 g) := by
  refine shapeCast_apply b shapeCasts_S256_S1x256 (ix2 (0 : Fin 1) g) (ix1 g) ?_
  rw [Shape.rowMajor_val_two, Shape.rowMajor_val_one]
  show g.val = 0 * 256 + g.val
  rw [Nat.zero_mul, Nat.zero_add]

/-- A bias vector of 128 entries as a row reads, at `(0, g)`, entry `g`. -/
theorem biasRow128_apply (b : FVec Ideal S128 .f32) (g : Fin 128) :
    shapeCast S1x128 b shapeCasts_S128_S1x128 (ix2 (0 : Fin 1) g) = b (ix1 g) := by
  refine shapeCast_apply b shapeCasts_S128_S1x128 (ix2 (0 : Fin 1) g) (ix1 g) ?_
  rw [Shape.rowMajor_val_two, Shape.rowMajor_val_one]
  show g.val = 0 * 128 + g.val
  rw [Nat.zero_mul, Nat.zero_add]

end Cert.KernelIdeal.Val

end
-- ==== Proof.RefReads.lean ====
/-
  The reference program's named values read at an index: the two dense products as sums over the contracted axis,
  the start-index columns, the wrap and clamp of a start index that is a row number, the per-edge factor and its
  spread over a row, the bias spread over the rows, the zero arrays, the bounds of the per-node scale, and the
  program's gather / scatter dimension numbers as the generic ones over literal extents.
-/
import proofs.«163016_j82188494176916_2_alg».proof.Proof.RefTerms
import proofs.«163016_j82188494176916_2_alg».proof.Proof.IndexOps
import proofs.«163016_j82188494176916_2_alg».proof.Proof.IndexOpsB
import Idealize.ShloMosaic.Lib.Pipeline.Value
import Idealize.ShloMosaic.Lib.ValueIdx
import Idealize.ShloMosaic.PureOps.Ideal.Laws

noncomputable section

open scoped BigOperators

namespace Cert.ReferenceIdeal.Val

open Idealize.ShloMosaic Idealize.ShloMosaic.ValueIdx Cert.ReferenceIdeal Cert.ReferenceIdeal.Gen

/-! ## The dense products -/

/-- The dense product of `[50000, 128]` by `[128, 256]` read at `(r, f)`: the sum over the contracted axis. -/
theorem dot1_apply (x : FVec Ideal S50000x128 .f32) (w : FVec Ideal S128x256 .f32) (r : Fin 50000) (f : Fin 256) :
    Host.dotGeneral (F := Ideal) dot_S50000x128_S128x256_S50000x256_1_0_0_1_n_n none x w (ix2 r f) = ∑ k : Fin 128, x (ix2 r k) * w (ix2 k f) := by
  simp only [Host.dotGeneral]
  rw [Ideal.dotGeneral_apply, ← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx (ix2 r f) ((contrEquiv1 dot_S50000x128_S128x256_S50000x256_1_0_0_1_n_n 128 rfl rfl).symm k) = ix2 r k := funext fun a => Fin.ext (by
    match a with
    | ⟨0, _⟩ =>
      show (dot_S50000x128_S128x256_S50000x256_1_0_0_1_n_n.lhsIdx (ix2 r f) ((contrEquiv1 dot_S50000x128_S128x256_S50000x256_1_0_0_1_n_n 128 rfl rfl).symm k) 0).val = r.val
      unfold DotDims.lhsIdx
      rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
      rfl
    | ⟨1, _⟩ => exact (dot_S50000x128_S128x256_S50000x256_1_0_0_1_n_n.lhsIdx_val_of_single rfl _ _).trans hk)
  have er : dot_S50000x128_S128x256_S50000x256_1_0_0_1_n_n.rhsIdx (ix2 r f) ((contrEquiv1 dot_S50000x128_S128x256_S50000x256_1_0_0_1_n_n 128 rfl rfl).symm k) = ix2 k f := funext fun a => Fin.ext (by
    match a with
    | ⟨0, _⟩ => exact (dot_S50000x128_S128x256_S50000x256_1_0_0_1_n_n.rhsIdx_val_of_single rfl _ _).trans hk
    | ⟨1, _⟩ =>
      show (dot_S50000x128_S128x256_S50000x256_1_0_0_1_n_n.rhsIdx (ix2 r f) ((contrEquiv1 dot_S50000x128_S128x256_S50000x256_1_0_0_1_n_n 128 rfl rfl).symm k) 1).val = f.val
      unfold DotDims.rhsIdx
      rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
      rfl)
  rw [el, er]

/-- The dense product of `[50000, 256]` by `[256, 128]` read at `(r, f)`: the sum over the contracted axis. -/
theorem dot2_apply (h : FVec Ideal S50000x256 .f32) (w : FVec Ideal S256x128 .f32) (r : Fin 50000) (f : Fin 128) :
    Host.dotGeneral (F := Ideal) dot_S50000x256_S256x128_S50000x128_1_0_0_1_n_n none h w (ix2 r f) = ∑ k : Fin 256, h (ix2 r k) * w (ix2 k f) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 r f) ((contrEquiv1 dot_S50000x256_S256x128_S50000x128_1_0_0_1_n_n 256 rfl rfl).symm k) = ix2 r k := funext fun a => Fin.ext (by
    match a with
    | ⟨0, _⟩ =>
      show (dot_S50000x256_S256x128_S50000x128_1_0_0_1_n_n.lhsIdx (ix2 r f) ((contrEquiv1 dot_S50000x256_S256x128_S50000x128_1_0_0_1_n_n 256 rfl rfl).symm k) 0).val = r.val
      unfold DotDims.lhsIdx
      rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
      rfl
    | ⟨1, _⟩ => exact (dot_S50000x256_S256x128_S50000x128_1_0_0_1_n_n.lhsIdx_val_of_single rfl _ _).trans hk)
  have er : dot_S50000x256_S256x128_S50000x128_1_0_0_1_n_n.rhsIdx (ix2 r f) ((contrEquiv1 dot_S50000x256_S256x128_S50000x128_1_0_0_1_n_n 256 rfl rfl).symm k) = ix2 k f := funext fun a => Fin.ext (by
    match a with
    | ⟨0, _⟩ => exact (dot_S50000x256_S256x128_S50000x128_1_0_0_1_n_n.rhsIdx_val_of_single rfl _ _).trans hk
    | ⟨1, _⟩ =>
      show (dot_S50000x256_S256x128_S50000x128_1_0_0_1_n_n.rhsIdx (ix2 r f) ((contrEquiv1 dot_S50000x256_S256x128_S50000x128_1_0_0_1_n_n 256 rfl rfl).symm k) 1).val = f.val
      unfold DotDims.rhsIdx
      rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
      rfl)
  rw [el, er]

/-! ## The start-index columns -/

/-- A list of rows as a column reads, at `(e, 0)`, entry `e` of the list. -/
theorem asCol_apply (v : IVec S850000 32) (e : Fin 850000) : asCol v (ix2 e (0 : Fin 1)) = v (ix1 e) := by
  unfold asCol
  exact broadcastInDim_apply _ bcast_S850000_S850000x1_0 v (ix2 e (0 : Fin 1)) (ix1 e) (fun a => match a with
    | ⟨0, _⟩ => by show e.val = if (850000 : Nat) = 1 then 0 else e.val; rw [if_neg (by decide)])

/-- The wrapped column reads, at `(e, 0)`, entry `e` of the list with `50000` added where it is negative. -/
theorem wrapCol_apply (v : IVec S850000 32) (e : Fin 850000) :
    wrapCol v (ix2 e (0 : Fin 1))
      = Scalar.select (IntOp.cmpi .slt (v (ix1 e)) 0#32) (IntOp.addi (v (ix1 e)) 50000#32) (v (ix1 e)) := by
  unfold wrapCol
  rw [asCol_apply]
  rfl

/-- Where entry `e` of the list is the row number `n`, the wrapped and clamped start index is `n`. -/
theorem wrapCol_clamp (v : IVec S850000 32) (e : Fin 850000) (n : Fin 50000) (h : (v (ix1 e)).toInt = ((n.val : Nat) : Int)) :
    GcnSpec.clampRow 50000 (by decide) (wrapCol v (ix2 e (0 : Fin 1))) = n := by
  rw [wrapCol_apply, GcnSpec.wrap_of_nonneg _ n.val h]
  exact GcnSpec.clampRow_of_toInt 50000 (by decide) _ n.val n.isLt h

/-! ## The per-edge factor -/

/-- The per-edge factor at edge `e`: the scale looked up at the source times the scale looked up at the target. -/
theorem edgeNorm_apply (ei : IVec S2x800000 32) (e : Fin 850000) :
    edgeNorm ei (ix1 e)
      = Host.gather gather_S50000_S850000x1_S850000_n_0_n_n_0_1_1 (dinv ei) (wrapCol (srcRows ei)) (ix1 e)
        * Host.gather gather_S50000_S850000x1_S850000_n_0_n_n_0_1_1 (dinv ei) (wrapCol (dstRows ei)) (ix1 e) := by
  unfold edgeNorm
  generalize Host.gather gather_S50000_S850000x1_S850000_n_0_n_n_0_1_1 (dinv ei) (wrapCol (srcRows ei)) = a
  generalize Host.gather gather_S50000_S850000x1_S850000_n_0_n_n_0_1_1 (dinv ei) (wrapCol (dstRows ei)) = b
  exact mulf_apply a b (ix1 e)

/-- A per-edge scalar spread over the `256` columns of its edge's row reads, at `(e, f)`, the scalar of edge `e`. -/
theorem norm256_apply (u : FVec Ideal S850000 .f32) (e : Fin 850000) (f : Fin 256) :
    broadcastInDim S850000x256 ![0, 1] bcast_S850000x1_S850000x256_0_1 (broadcastInDim S850000x1 ![0] bcast_S850000_S850000x1_0 u) (ix2 e f) = u (ix1 e) := by
  refine (broadcastInDim_apply _ bcast_S850000x1_S850000x256_0_1 _ (ix2 e f) (ix2 e (0 : Fin 1)) (fun a => match a with
    | ⟨0, _⟩ => by show e.val = if (850000 : Nat) = 1 then 0 else e.val; rw [if_neg (by decide)]
    | ⟨1, _⟩ => by show 0 = if (1 : Nat) = 1 then 0 else f.val; rw [if_pos rfl])).trans ?_
  exact broadcastInDim_apply _ bcast_S850000_S850000x1_0 u (ix2 e (0 : Fin 1)) (ix1 e) (fun a => match a with
    | ⟨0, _⟩ => by show e.val = if (850000 : Nat) = 1 then 0 else e.val; rw [if_neg (by decide)])

/-- A per-edge scalar spread over the `128` columns of its edge's row reads, at `(e, f)`, the scalar of edge `e`. -/
theorem norm128_apply (u : FVec Ideal S850000 .f32) (e : Fin 850000) (f : Fin 128) :
    broadcastInDim S850000x128 ![0, 1] bcast_S850000x1_S850000x128_0_1 (broadcastInDim S850000x1 ![0] bcast_S850000_S850000x1_0 u) (ix2 e f) = u (ix1 e) := by
  refine (broadcastInDim_apply _ bcast_S850000x1_S850000x128_0_1 _ (ix2 e f) (ix2 e (0 : Fin 1)) (fun a => match a with
    | ⟨0, _⟩ => by show e.val = if (850000 : Nat) = 1 then 0 else e.val; rw [if_neg (by decide)]
    | ⟨1, _⟩ => by show 0 = if (1 : Nat) = 1 then 0 else f.val; rw [if_pos rfl])).trans ?_
  exact broadcastInDim_apply _ bcast_S850000_S850000x1_0 u (ix2 e (0 : Fin 1)) (ix1 e) (fun a => match a with
    | ⟨0, _⟩ => by show e.val = if (850000 : Nat) = 1 then 0 else e.val; rw [if_neg (by decide)])

/-! ## The bias and the zero arrays -/

/-- The bias vector spread over the 50000 rows reads, at `(n, g)`, the bias of column `g`. -/
theorem bias256_apply (b : FVec Ideal S256 .f32) (n : Fin 50000) (g : Fin 256) :
    broadcastInDim S50000x256 ![0, 1] bcast_S1x256_S50000x256_0_1 (broadcastInDim S1x256 ![1] bcast_S256_S1x256_1 b) (ix2 n g) = b (ix1 g) := by
  refine (broadcastInDim_apply _ bcast_S1x256_S50000x256_0_1 _ (ix2 n g) (ix2 (0 : Fin 1) g) (fun a => match a with
    | ⟨0, _⟩ => by show 0 = if (1 : Nat) = 1 then 0 else n.val; rw [if_pos rfl]
    | ⟨1, _⟩ => by show g.val = if (256 : Nat) = 1 then 0 else g.val; rw [if_neg (by decide)])).trans ?_
  exact broadcastInDim_apply _ bcast_S256_S1x256_1 b (ix2 (0 : Fin 1) g) (ix1 g) (fun a => match a with
    | ⟨0, _⟩ => by show g.val = if (256 : Nat) = 1 then 0 else g.val; rw [if_neg (by decide)])

/-- The bias vector spread over the 50000 rows reads, at `(n, g)`, the bias of column `g`. -/
theorem bias128_apply (b : FVec Ideal S128 .f32) (n : Fin 50000) (g : Fin 128) :
    broadcastInDim S50000x128 ![0, 1] bcast_S1x128_S50000x128_0_1 (broadcastInDim S1x128 ![1] bcast_S128_S1x128_1 b) (ix2 n g) = b (ix1 g) := by
  refine (broadcastInDim_apply _ bcast_S1x128_S50000x128_0_1 _ (ix2 n g) (ix2 (0 : Fin 1) g) (fun a => match a with
    | ⟨0, _⟩ => by show 0 = if (1 : Nat) = 1 then 0 else n.val; rw [if_pos rfl]
    | ⟨1, _⟩ => by show g.val = if (128 : Nat) = 1 then 0 else g.val; rw [if_neg (by decide)])).trans ?_
  exact broadcastInDim_apply _ bcast_S128_S1x128_1 b (ix2 (0 : Fin 1) g) (ix1 g) (fun a => match a with
    | ⟨0, _⟩ => by show g.val = if (128 : Nat) = 1 then 0 else g.val; rw [if_neg (by decide)])

/-- The zero array a row accumulation starts from reads `0` everywhere. -/
theorem zero256_apply (i : S50000x256.Idx) :
    broadcastInDim S50000x256 ![] bcast_S_S50000x256 (constant (F := Ideal) S_ .f32 0x00000000#32) i = 0 := by
  show Ideal.ofBits .f32 0x00000000#32 = 0
  exact Ideal.ofBits_zero_f32

/-- The zero array a row accumulation starts from reads `0` everywhere. -/
theorem zero128_apply (i : S50000x128.Idx) :
    broadcastInDim S50000x128 ![] bcast_S_S50000x128 (constant (F := Ideal) S_ .f32 0x00000000#32) i = 0 := by
  show Ideal.ofBits .f32 0x00000000#32 = 0
  exact Ideal.ofBits_zero_f32

/-! ## The per-node scale -/

/-- The zero vector of node scalars reads the zero word everywhere. -/
theorem zeroNodes_apply (r : S50000.Idx) : zeroNodes r = Ideal.ofBits .f32 0x00000000#32 := rfl

/-- The select between the inverse square root and a zero vector, where the degree is positive, read at a node: the
    scale of that node's degree. -/
theorem select_rsqrt_apply (d z : FVec Ideal S50000 .f32) (r : S50000.Idx) (hz : z r = Ideal.ofBits .f32 0x00000000#32) :
    select (cmpf (F := Ideal) .ogt d z) (Host.rsqrt (F := Ideal) d) z r = GcnSpec.scaleAt (d r) := by
  show Scalar.select (FloatOps.cmpf (F := Ideal) (φ := .f32) .ogt (d r) (z r)) (FloatOps.hostUnary (F := Ideal) (φ := .f32) .rsqrt (d r)) (z r) = _
  rw [hz]
  rfl

/-- So that select is non-negative and never `+∞`. -/
theorem select_rsqrt_bounds (d z : FVec Ideal S50000 .f32) (r : S50000.Idx) (hz : z r = Ideal.ofBits .f32 0x00000000#32) :
    0 ≤ select (cmpf (F := Ideal) .ogt d z) (Host.rsqrt (F := Ideal) d) z r
      ∧ select (cmpf (F := Ideal) .ogt d z) (Host.rsqrt (F := Ideal) d) z r ≠ ⊤ := by
  rw [select_rsqrt_apply d z r hz]
  exact GcnSpec.scaleAt_bounds (d r)

/-- The per-node scale is non-negative and never `+∞`. -/
theorem dinv_bounds (ei : IVec S2x800000 32) (r : S50000.Idx) : 0 ≤ dinv ei r ∧ dinv ei r ≠ ⊤ := by
  unfold dinv
  exact select_rsqrt_bounds (degree ei) zeroNodes r (zeroNodes_apply r)

/-! ## The program's dimension numbers are the generic ones -/

theorem gather256_eq : gather_S50000x256_S850000x1_S850000x256_1_0_n_n_0_1_1256
    = GcnSpec.rowGatherDims 50000 256 850000 Cert.ReferenceIdeal.Gen.gather_S50000x256_S850000x1_S850000x256_1_0_n_n_0_1_1256_wf := rfl

theorem gather128_eq : gather_S50000x128_S850000x1_S850000x128_1_0_n_n_0_1_1128
    = GcnSpec.rowGatherDims 50000 128 850000 Cert.ReferenceIdeal.Gen.gather_S50000x128_S850000x1_S850000x128_1_0_n_n_0_1_1128_wf := rfl

theorem gatherVec_eq : gather_S50000_S850000x1_S850000_n_0_n_n_0_1_1
    = GcnSpec.vecGatherDims 50000 850000 Cert.ReferenceIdeal.Gen.gather_S50000_S850000x1_S850000_n_0_n_n_0_1_1_wf := rfl

theorem scatter256_eq : scatter_S50000x256_S850000x1_S850000x256_1_0_0_1
    = GcnSpec.rowScatterDims 50000 256 850000 Cert.ReferenceIdeal.Gen.scatter_S50000x256_S850000x1_S850000x256_1_0_0_1_wf := rfl

theorem scatter128_eq : scatter_S50000x128_S850000x1_S850000x128_1_0_0_1
    = GcnSpec.rowScatterDims 50000 128 850000 Cert.ReferenceIdeal.Gen.scatter_S50000x128_S850000x1_S850000x128_1_0_0_1_wf := rfl

end Cert.ReferenceIdeal.Val

end
-- ==== Proof.Layers.lean ====
/-
  The two layers, kernel form against reference form, as whole arrays.

  The kernel program scales the dense product's rows by `dinv` before the aggregation and the aggregated rows by `dinv`
  again afterwards; the reference scales every gathered row by the per-edge factor `dinv[src e] · dinv[dst e]` before the
  aggregation.  Both aggregate over the same edges (those whose target index, read signed, is the node), look the
  source rows up at the same clamped index, and for an edge that lands on node `n` the clamped target is `n`; `dinv` is
  non-negative and never `+∞`.  So GcnSpec.aggregate_eq applies entry by entry: no finiteness of the features or the
  weights is used.  Layer 1 carries the rectifier on both sides.
-/
import proofs.«163016_j82188494176916_2_alg».proof.Proof.Aggregate
import proofs.«163016_j82188494176916_2_alg».proof.Proof.KernelTerms
import proofs.«163016_j82188494176916_2_alg».proof.Proof.RefTerms
import proofs.«163016_j82188494176916_2_alg».proof.Proof.KernelReads
import proofs.«163016_j82188494176916_2_alg».proof.Proof.RefReads

noncomputable section

namespace Cert.Layers

open Idealize.ShloMosaic Idealize.ShloMosaic.ValueIdx

/-! ## The two programs' named host values coincide -/

theorem srcRows_eq (ei : IVec Cert.KernelIdeal.S2x800000 32) :
    Cert.KernelIdeal.Val.srcRows ei = Cert.ReferenceIdeal.Val.srcRows ei := rfl
theorem dstRows_eq (ei : IVec Cert.KernelIdeal.S2x800000 32) :
    Cert.KernelIdeal.Val.dstRows ei = Cert.ReferenceIdeal.Val.dstRows ei := rfl
theorem asCol_eq (v : IVec Cert.KernelIdeal.S850000 32) :
    Cert.KernelIdeal.Val.asCol v = Cert.ReferenceIdeal.Val.asCol v := rfl
theorem wrapCol_eq (v : IVec Cert.KernelIdeal.S850000 32) :
    Cert.KernelIdeal.Val.wrapCol v = Cert.ReferenceIdeal.Val.wrapCol v := rfl
theorem dinv_eq (ei : IVec Cert.KernelIdeal.S2x800000 32) :
    Cert.KernelIdeal.Val.dinv ei = Cert.ReferenceIdeal.Val.dinv ei := rfl

/-! ## The kernel program's records and zero splats are the generic ones -/

theorem kgather256_eq : Cert.KernelIdeal.gather_S50000x256_S850000x1_S850000x256_1_0_n_n_0_1_1256
    = GcnSpec.rowGatherDims 50000 256 850000 Cert.ReferenceIdeal.Gen.gather_S50000x256_S850000x1_S850000x256_1_0_n_n_0_1_1256_wf := rfl
theorem kgather128_eq : Cert.KernelIdeal.gather_S50000x128_S850000x1_S850000x128_1_0_n_n_0_1_1128
    = GcnSpec.rowGatherDims 50000 128 850000 Cert.ReferenceIdeal.Gen.gather_S50000x128_S850000x1_S850000x128_1_0_n_n_0_1_1128_wf := rfl
theorem kscatter256_eq : Cert.KernelIdeal.scatter_S50000x256_S850000x1_S850000x256_1_0_0_1
    = GcnSpec.rowScatterDims 50000 256 850000 Cert.ReferenceIdeal.Gen.scatter_S50000x256_S850000x1_S850000x256_1_0_0_1_wf := rfl
theorem kscatter128_eq : Cert.KernelIdeal.scatter_S50000x128_S850000x1_S850000x128_1_0_0_1
    = GcnSpec.rowScatterDims 50000 128 850000 Cert.ReferenceIdeal.Gen.scatter_S50000x128_S850000x1_S850000x128_1_0_0_1_wf := rfl
theorem kzero256_eq :
    broadcastInDim Cert.KernelIdeal.S50000x256 ![] Cert.KernelIdeal.Gen.bcast_S_S50000x256 (constant (F := Ideal) Cert.KernelIdeal.S_ .f32 0x00000000#32)
      = broadcastInDim Cert.ReferenceIdeal.S50000x256 ![] Cert.ReferenceIdeal.Gen.bcast_S_S50000x256 (constant (F := Ideal) Cert.ReferenceIdeal.S_ .f32 0x00000000#32) := rfl
theorem kzero128_eq :
    broadcastInDim Cert.KernelIdeal.S50000x128 ![] Cert.KernelIdeal.Gen.bcast_S_S50000x128 (constant (F := Ideal) Cert.KernelIdeal.S_ .f32 0x00000000#32)
      = broadcastInDim Cert.ReferenceIdeal.S50000x128 ![] Cert.ReferenceIdeal.Gen.bcast_S_S50000x128 (constant (F := Ideal) Cert.ReferenceIdeal.S_ .f32 0x00000000#32) := rfl

/-! ## Layer 2 -/

/-- Layer 2, kernel form = reference form. -/
theorem layer2_eq (h : FVec Ideal Cert.KernelIdeal.S50000x256 .f32) (ei : IVec Cert.KernelIdeal.S2x800000 32)
    (w2 : FVec Ideal Cert.KernelIdeal.S256x128 .f32) (b2 : FVec Ideal Cert.KernelIdeal.S128 .f32) :
    Cert.KernelIdeal.Val.layer2 h ei w2 b2 = Cert.ReferenceIdeal.Val.layer2 h ei w2 b2 := by
  have key := GcnSpec.aggregate_eq (N := 50000) (M := 128) (E := 850000) (by decide)
    Cert.ReferenceIdeal.Gen.gather_S50000x128_S850000x1_S850000x128_1_0_n_n_0_1_1128_wf
    Cert.ReferenceIdeal.Gen.gather_S50000_S850000x1_S850000_n_0_n_n_0_1_1_wf
    Cert.ReferenceIdeal.Gen.scatter_S50000x128_S850000x1_S850000x128_1_0_0_1_wf
    (Host.dotGeneral (F := Ideal) Cert.ReferenceIdeal.dot_S50000x256_S256x128_S50000x128_1_0_0_1_n_n none h w2)
    (Cert.ReferenceIdeal.Val.dinv ei) (Cert.ReferenceIdeal.Val.dinv_bounds ei)
    (Cert.KernelIdeal.Val.dinvCol ei)
    (fun r => (Cert.KernelIdeal.Val.dinvCol_apply ei r).trans (congrFun (dinv_eq ei) _))
    (Cert.ReferenceIdeal.Val.wrapCol (Cert.ReferenceIdeal.Val.srcRows ei))
    (Cert.ReferenceIdeal.Val.wrapCol (Cert.ReferenceIdeal.Val.dstRows ei))
    (Cert.ReferenceIdeal.Val.asCol (Cert.ReferenceIdeal.Val.dstRows ei))
    (fun e n hh => Cert.ReferenceIdeal.Val.wrapCol_clamp (Cert.ReferenceIdeal.Val.dstRows ei) e n
      ((congrArg BitVec.toInt (Cert.ReferenceIdeal.Val.asCol_apply (Cert.ReferenceIdeal.Val.dstRows ei) e)).symm.trans hh))
    (GcnSpec.scaledProduct (N := 50000) (K := 256) (M := 128) h w2 (Cert.KernelIdeal.Val.dinvCol ei))
    (fun r f => by
      show (∑ k : Fin 256, h (ix2 r k) * w2 (ix2 k f)) * Cert.KernelIdeal.Val.dinvCol ei (ix2 r (0 : Fin 1)) = _
      rw [Cert.ReferenceIdeal.Val.dot2_apply h w2 r f])
    (broadcastInDim Cert.ReferenceIdeal.S850000x128 ![0, 1] Cert.ReferenceIdeal.Gen.bcast_S850000x1_S850000x128_0_1
      (broadcastInDim Cert.ReferenceIdeal.S850000x1 ![0] Cert.ReferenceIdeal.Gen.bcast_S850000_S850000x1_0 (Cert.ReferenceIdeal.Val.edgeNorm ei)))
    (fun e f => by
      rw [Cert.ReferenceIdeal.Val.norm128_apply, Cert.ReferenceIdeal.Val.edgeNorm_apply, Cert.ReferenceIdeal.Val.gatherVec_eq])
    (shapeCast Cert.KernelIdeal.S1x128 b2 Cert.KernelIdeal.Gen.shapeCasts_S128_S1x128)
    (broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b2))
    (fun n g => (Cert.ReferenceIdeal.Val.bias128_apply b2 n g).trans (Cert.KernelIdeal.Val.biasRow128_apply b2 g).symm)
    (broadcastInDim Cert.ReferenceIdeal.S50000x128 ![] Cert.ReferenceIdeal.Gen.bcast_S_S50000x128 (constant (F := Ideal) Cert.ReferenceIdeal.S_ .f32 0x00000000#32))
    Cert.ReferenceIdeal.Val.zero128_apply
  unfold Cert.KernelIdeal.Val.layer2 Cert.KernelIdeal.Val.aggregate2 Cert.ReferenceIdeal.Val.layer2
  rw [srcRows_eq, dstRows_eq, wrapCol_eq, asCol_eq, kscatter128_eq, kgather128_eq, kzero128_eq,
    Cert.ReferenceIdeal.Val.scatter128_eq, Cert.ReferenceIdeal.Val.gather128_eq]
  exact key

/-! ## Layer 1 -/

/-- Layer 1 before the rectifier, kernel form = reference form. -/
theorem layer1_core (x : FVec Ideal Cert.KernelIdeal.S50000x128 .f32) (ei : IVec Cert.KernelIdeal.S2x800000 32)
    (w1 : FVec Ideal Cert.KernelIdeal.S128x256 .f32) (b1 : FVec Ideal Cert.KernelIdeal.S256 .f32) :
    GcnSpec.scaleShift (N := 50000) (M := 256)
        (Cert.KernelIdeal.Val.aggregate1 (GcnSpec.scaledProduct (N := 50000) (K := 128) (M := 256) x w1 (Cert.KernelIdeal.Val.dinvCol ei)) ei)
        (Cert.KernelIdeal.Val.dinvCol ei) (shapeCast Cert.KernelIdeal.S1x256 b1 Cert.KernelIdeal.Gen.shapeCasts_S256_S1x256)
      = Cert.ReferenceIdeal.Val.layer1 x ei w1 b1 := by
  have key := GcnSpec.aggregate_eq (N := 50000) (M := 256) (E := 850000) (by decide)
    Cert.ReferenceIdeal.Gen.gather_S50000x256_S850000x1_S850000x256_1_0_n_n_0_1_1256_wf
    Cert.ReferenceIdeal.Gen.gather_S50000_S850000x1_S850000_n_0_n_n_0_1_1_wf
    Cert.ReferenceIdeal.Gen.scatter_S50000x256_S850000x1_S850000x256_1_0_0_1_wf
    (Host.dotGeneral (F := Ideal) Cert.ReferenceIdeal.dot_S50000x128_S128x256_S50000x256_1_0_0_1_n_n none x w1)
    (Cert.ReferenceIdeal.Val.dinv ei) (Cert.ReferenceIdeal.Val.dinv_bounds ei)
    (Cert.KernelIdeal.Val.dinvCol ei)
    (fun r => (Cert.KernelIdeal.Val.dinvCol_apply ei r).trans (congrFun (dinv_eq ei) _))
    (Cert.ReferenceIdeal.Val.wrapCol (Cert.ReferenceIdeal.Val.srcRows ei))
    (Cert.ReferenceIdeal.Val.wrapCol (Cert.ReferenceIdeal.Val.dstRows ei))
    (Cert.ReferenceIdeal.Val.asCol (Cert.ReferenceIdeal.Val.dstRows ei))
    (fun e n hh => Cert.ReferenceIdeal.Val.wrapCol_clamp (Cert.ReferenceIdeal.Val.dstRows ei) e n
      ((congrArg BitVec.toInt (Cert.ReferenceIdeal.Val.asCol_apply (Cert.ReferenceIdeal.Val.dstRows ei) e)).symm.trans hh))
    (GcnSpec.scaledProduct (N := 50000) (K := 128) (M := 256) x w1 (Cert.KernelIdeal.Val.dinvCol ei))
    (fun r f => by
      show (∑ k : Fin 128, x (ix2 r k) * w1 (ix2 k f)) * Cert.KernelIdeal.Val.dinvCol ei (ix2 r (0 : Fin 1)) = _
      rw [Cert.ReferenceIdeal.Val.dot1_apply x w1 r f])
    (broadcastInDim Cert.ReferenceIdeal.S850000x256 ![0, 1] Cert.ReferenceIdeal.Gen.bcast_S850000x1_S850000x256_0_1
      (broadcastInDim Cert.ReferenceIdeal.S850000x1 ![0] Cert.ReferenceIdeal.Gen.bcast_S850000_S850000x1_0 (Cert.ReferenceIdeal.Val.edgeNorm ei)))
    (fun e f => by
      rw [Cert.ReferenceIdeal.Val.norm256_apply, Cert.ReferenceIdeal.Val.edgeNorm_apply, Cert.ReferenceIdeal.Val.gatherVec_eq])
    (shapeCast Cert.KernelIdeal.S1x256 b1 Cert.KernelIdeal.Gen.shapeCasts_S256_S1x256)
    (broadcastInDim Cert.ReferenceIdeal.S50000x256 ![0, 1] Cert.ReferenceIdeal.Gen.bcast_S1x256_S50000x256_0_1
      (broadcastInDim Cert.ReferenceIdeal.S1x256 ![1] Cert.ReferenceIdeal.Gen.bcast_S256_S1x256_1 b1))
    (fun n g => (Cert.ReferenceIdeal.Val.bias256_apply b1 n g).trans (Cert.KernelIdeal.Val.biasRow256_apply b1 g).symm)
    (broadcastInDim Cert.ReferenceIdeal.S50000x256 ![] Cert.ReferenceIdeal.Gen.bcast_S_S50000x256 (constant (F := Ideal) Cert.ReferenceIdeal.S_ .f32 0x00000000#32))
    Cert.ReferenceIdeal.Val.zero256_apply
  unfold Cert.KernelIdeal.Val.aggregate1 Cert.ReferenceIdeal.Val.layer1
  rw [srcRows_eq, dstRows_eq, wrapCol_eq, asCol_eq, kscatter256_eq, kgather256_eq, kzero256_eq,
    Cert.ReferenceIdeal.Val.scatter256_eq, Cert.ReferenceIdeal.Val.gather256_eq]
  exact key

/-- The rectified stage is the rectifier after the plain stage (over any arrays). -/
theorem scaleShiftRelu_eq {N M : Nat} (a : (⟨2, ![N, M]⟩ : Shape).Idx → EReal) (d : (⟨2, ![N, 1]⟩ : Shape).Idx → EReal)
    (b : (⟨2, ![1, M]⟩ : Shape).Idx → EReal) :
    GcnSpec.scaleShiftRelu a d b = fun i => max (GcnSpec.scaleShift a d b i) 0 := rfl

/-- The reference's rectifier on an array: the maximum with the zero splat is the maximum with `0`. -/
theorem relu_eq (y : FVec Ideal Cert.ReferenceIdeal.S50000x256 .f32) :
    Cert.ReferenceIdeal.Val.relu y = fun i => max (y i) 0 := by
  funext i
  show max (y i) (broadcastInDim Cert.ReferenceIdeal.S50000x256 ![] Cert.ReferenceIdeal.Gen.bcast_S_S50000x256
    (constant (F := Ideal) Cert.ReferenceIdeal.S_ .f32 0x00000000#32) i) = _
  rw [Cert.ReferenceIdeal.Val.zero256_apply]

/-- Layer 1 with the rectifier on both sides. -/
theorem layer1_eq (x : FVec Ideal Cert.KernelIdeal.S50000x128 .f32) (ei : IVec Cert.KernelIdeal.S2x800000 32)
    (w1 : FVec Ideal Cert.KernelIdeal.S128x256 .f32) (b1 : FVec Ideal Cert.KernelIdeal.S256 .f32) :
    Cert.KernelIdeal.Val.layer1 x ei w1 b1 = Cert.ReferenceIdeal.Val.relu (Cert.ReferenceIdeal.Val.layer1 x ei w1 b1) := by
  unfold Cert.KernelIdeal.Val.layer1
  rw [scaleShiftRelu_eq, layer1_core, relu_eq]

/-! ## The whole network -/

/-- The kernel program's function of the arguments is the reference's. -/
theorem out_eq (x : FVec Ideal Cert.KernelIdeal.S50000x128 .f32) (ei : IVec Cert.KernelIdeal.S2x800000 32)
    (w1 : FVec Ideal Cert.KernelIdeal.S128x256 .f32) (b1 : FVec Ideal Cert.KernelIdeal.S256 .f32)
    (w2 : FVec Ideal Cert.KernelIdeal.S256x128 .f32) (b2 : FVec Ideal Cert.KernelIdeal.S128 .f32) :
    Cert.KernelIdeal.Val.kernelOut x ei w1 b1 w2 b2 = Cert.ReferenceIdeal.Val.refOut x ei w1 b1 w2 b2 := by
  unfold Cert.KernelIdeal.Val.kernelOut Cert.ReferenceIdeal.Val.refOut
  rw [layer1_eq, layer2_eq]

end Cert.Layers

end
-- ==== Proof.lean ====
/-
  A two-layer graph convolution on 50000 nodes and 850000 edges (800000 given ones and a self-loop per node), the
  Pallas program against its jnp reference, at the extended reals.

  Each layer computes, for node `n` and feature `f`,   Σ_{e : dst e = n} (x · W)[src e, f] · dinv[src e] · dinv[n]  +  b[f],
  with `dinv = deg^{-1/2}` (zero where the degree is not positive).  The reference multiplies each gathered row by the
  per-edge factor `dinv[src e] · dinv[dst e]` before the scatter-add.  The kernel program factors it: a first region
  multiplies the rows of the dense product `x · W` by `dinv` (5000 rows per grid point), the host gathers and
  scatter-adds, and a second region multiplies the aggregated rows by `dinv`, adds the bias and (layer 1) rectifies.
  The two agree entry by entry because an edge that lands on `n` has (clamped) target `n`, multiplication of extended
  reals is associative, and a factor that is non-negative and not `+∞` — which `dinv` always is — distributes over a
  finite sum whatever the summands are.  No finiteness of the inputs is used: the precondition is never opened.

  The pieces: the four regions' arrays after the run as whole-array functions (Region0 … Region3, over GcnSpec's
  `scaledProduct`, `scaleShiftRelu`, `scaleShift`); the kernel program's run with its result named (KernelRun) and that
  result as `kernelOut` of the arguments (KernelValue); the reference's run and its result as `refOut` (RefRun,
  RefValue); the host's gather and scatter read at an index (IndexOps, IndexOpsB); the aggregation law (Aggregate) and
  the two layers (Layers).  The ideal pass rewrote nothing, so `preserves` is `True`.
-/
import proofs.«163016_j82188494176916_2_alg».proof.Defs
import proofs.«163016_j82188494176916_2_alg».proof.Proof.Gen.Kernel
import proofs.«163016_j82188494176916_2_alg».proof.Proof.Gen.Kernel.Skeleton
import proofs.«163016_j82188494176916_2_alg».proof.Proof.Gen.Kernel.Launch
import proofs.«163016_j82188494176916_2_alg».proof.Proof.Gen.Kernel.Points
import proofs.«163016_j82188494176916_2_alg».proof.Proof.Gen.Kernel.Frame
import proofs.«163016_j82188494176916_2_alg».proof.Proof.Gen.KernelIdeal
import proofs.«163016_j82188494176916_2_alg».proof.Proof.Gen.KernelIdeal.Skeleton
import proofs.«163016_j82188494176916_2_alg».proof.Proof.Gen.KernelIdeal.Launch
import proofs.«163016_j82188494176916_2_alg».proof.Proof.Gen.KernelIdeal.Points
import proofs.«163016_j82188494176916_2_alg».proof.Proof.Gen.KernelIdeal.Frame
import proofs.«163016_j82188494176916_2_alg».proof.Proof.Gen.ReferenceIdeal
import proofs.«163016_j82188494176916_2_alg».proof.Proof.Gen.Pre_finite_inputs
import proofs.«163016_j82188494176916_2_alg».proof.Proof.RefRun
import proofs.«163016_j82188494176916_2_alg».proof.Proof.RefValue
import proofs.«163016_j82188494176916_2_alg».proof.Proof.KernelRun
import proofs.«163016_j82188494176916_2_alg».proof.Proof.KernelValue
import proofs.«163016_j82188494176916_2_alg».proof.Proof.Layers
import Idealize.ShloMosaic.Adequacy
import Idealize.ShloMosaic.Init

noncomputable section

namespace Cert.Proof

open Idealize.ShloMosaic Idealize.ShloMosaic.TcCoe Idealize.SL.Sem

/-- The three programs run, nothing faulting, and leave their argument arrays as launched: the two kernel programs by
    their generated frames, the reference by its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- At the extended reals the kernel program's result array ends at `kernelOut` of the arguments and the reference's at
    `refOut` of arguments that agree with them: one function (Layers.out_eq). -/
theorem algebraic : Cert.algebraic_KernelIdeal_ReferenceIdeal := by
  intro m ρ m' ρ' _ hagree
  refine ⟨fun c => Cert.KernelIdeal.Val.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Val.result_eq, (hagree c).1, (hagree c).2.1, (hagree c).2.2.1, (hagree c).2.2.2.1,
      (hagree c).2.2.2.2.1, (hagree c).2.2.2.2.2]
    exact (Cert.Layers.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
